-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S3x32 : Shape := ⟨2, ![3, 32]⟩
abbrev S32 : Shape := ⟨1, ![32]⟩
abbrev S32x32 : Shape := ⟨2, ![32, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S32x32 .f32) (main_arg6 : FVec F S32 .f32) (main_arg7 : FVec F S288x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S288x128 .f32 := Host.absf main_arg7
  let main_cst_10 : FVec F S_ .f32 := constant S_ .f32 0x7F800000#32
  let main_v30 : FVec F S288x128 .f32 := broadcastInDim S288x128 ![] bcast_S_S288x128 main_cst_10
  let main_v31 : IVec S288x128 1 := cmpf .olt main_v29 main_v30
  let main_c_11 : IVec S_ 1 := constantI S_ 1 1#1
  let main_v32 : IVec S_ 1 := (fun x v => Host.reduce IntOp.andi x v reducesTo_S288x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x800000 32) (main_arg3 : FVec F S3x32 .f32) (main_arg4 : FVec F S32 .f32) (main_arg5 : FVec F S32x32 .f32) (main_arg6 : FVec F S32 .f32) (main_arg7 : FVec F S288x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S3x32 .f32 := Host.absf main_arg3
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S3x32 : Shape := ⟨2, ![3, 32]⟩
abbrev S32 : Shape := ⟨1, ![32]⟩
abbrev S32x32 : Shape := ⟨2, ![32, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S3x800000 : Shape := ⟨2, ![3, 800000]⟩
abbrev S32x128 : Shape := ⟨2, ![32, 128]⟩
abbrev S1x32 : Shape := ⟨2, ![1, 32]⟩
abbrev S1x128 : Shape := ⟨2, ![1, 128]⟩
abbrev S6400x128 : Shape := ⟨2, ![6400, 128]⟩
abbrev S3x6400 : Shape := ⟨2, ![3, 6400]⟩
abbrev S6400x32 : Shape := ⟨2, ![6400, 32]⟩
abbrev S2000x128 : Shape := ⟨2, ![2000, 128]⟩

abbrev nBuf : Space → Nat
  | .hbm => 76
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S3x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S288x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x3, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x3, .f32⟩
  | .hbm, ⟨56, _⟩ => ⟨S800000x3, .f32⟩
  | .hbm, ⟨57, _⟩ => ⟨S3x800000, .f32⟩
  | .hbm, ⟨58, _⟩ => ⟨S128x128, .f32⟩
  | .hbm, ⟨59, _⟩ => ⟨S128x128, .f32⟩
  | .hbm, ⟨60, _⟩ => ⟨S32x128, .f32⟩
  | .hbm, ⟨61, _⟩ => ⟨S1x32, .f32⟩
  | .hbm, ⟨62, _⟩ => ⟨S1x32, .f32⟩
  | .hbm, ⟨63, _⟩ => ⟨S1x128, .f32⟩
  | .hbm, ⟨64, _⟩ => ⟨S1x128, .f32⟩
  | .hbm, ⟨65, _⟩ => ⟨S800000x128, .bf16⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S1x128, .f32⟩
  | .hbm, ⟨75, _⟩ => ⟨S50000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S3x6400, .f32⟩
  | .local _ .vmem, ⟨5, _⟩ => ⟨S3x6400, .f32⟩
  | .local _ .vmem, ⟨6, _⟩ => ⟨S3x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S128x128, .f32⟩
  | .local _ .vmem, ⟨11, _⟩ => ⟨S128x128, .f32⟩
  | .local _ .vmem, ⟨12, _⟩ => ⟨S32x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S6400x128, .bf16⟩
  | .local _ .vmem, ⟨17, _⟩ => ⟨S6400x128, .bf16⟩
  | .local _ .vmem, ⟨18, _⟩ => ⟨S2000x128, .bf16⟩
  | .local _ .vmem, ⟨19, _⟩ => ⟨S2000x128, .bf16⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  transposes_S800000x3_S3x800000_1_0 : S800000x3.Transposes [1, 0] S3x800000
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S32_S1x32 : S32.ShapeCasts S1x32
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S3x6400_S3x6400_0_0 : ∀ a, (![0, 0] : Fin 2 → Nat) a + S3x6400.size a ≤ S3x6400.size a
  h_S3x6400 : 0 < S3x6400.numel
  shapeCasts_S3x6400_S3x6400 : S3x6400.ShapeCasts S3x6400
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x32_S32x32_0_0 : ∀ a, (![0, 0] : Fin 2 → Nat) a + S32x32.size a ≤ S32x32.size a
  h_S32x32 : 0 < S32x32.numel
  broadcasts_S1x32_S6400x32 : S1x32.Broadcasts S6400x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  packedbf16_S6400x128_S6400x128_0_0 : (Rect.unit (s := S6400x128) ![0, 0] S6400x128.size inb_S6400x128_S6400x128_0_0).PackedRows (EltTy.packing .bf16)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S3x6400_S3x32_S6400x32_0_0_1_1_n_n_wf : DotDims.WF S3x6400 S3x32 S6400x32 [0] [0] [1] [1] [] []
  dot_S6400x32_S32x32_S6400x32_1_0_0_1_n_n_wf : DotDims.WF S6400x32 S32x32 S6400x32 [1] [0] [0] [1] [] []
  dot_S6400x128_S128x128_S6400x128_1_0_0_1_n_n_wf : DotDims.WF S6400x128 S128x128 S6400x128 [1] [0] [0] [1] [] []
  dot_S6400x32_S32x128_S6400x128_1_0_0_1_n_n_wf : DotDims.WF S6400x32 S32x128 S6400x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x6400.size a ≤ S3x800000.size a
  hwx0_2 : ∀ i : grid0.Coords, EltTy.bits .f32 = 32 ∨ (Rect.block (s := S3x800000) S3x6400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x128.size a
  hwx0_9 : ∀ i : grid0.Coords, EltTy.bits .f32 = 32 ∨ (Rect.block (s := S32x128) S32x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x128.size a ≤ S800000x128.size a
  hwx0_13 : ∀ i : grid0.Coords, EltTy.bits .bf16 = 32 ∨ (Rect.block (s := S800000x128) S6400x128.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3x6400_S3x32_S6400x32_0_0_1_1_n_n : DotDims S3x6400 S3x32 S6400x32 where
  lhsContracting := [0]
  rhsContracting := [0]
  lhsNonContracting := [1]
  rhsNonContracting := [1]
  lhsBatch := []
  rhsBatch := []
  wf := dot_S3x6400_S3x32_S6400x32_0_0_1_1_n_n_wf
def dot_S6400x32_S32x32_S6400x32_1_0_0_1_n_n : DotDims S6400x32 S32x32 S6400x32 where
  lhsContracting := [1]
  rhsContracting := [0]
  lhsNonContracting := [0]
  rhsNonContracting := [1]
  lhsBatch := []
  rhsBatch := []
  wf := dot_S6400x32_S32x32_S6400x32_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S3x6400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S32x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v41) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42) S6400x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S3x32 : Shape := ⟨2, ![3, 32]⟩
abbrev S32 : Shape := ⟨1, ![32]⟩
abbrev S32x32 : Shape := ⟨2, ![32, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x32 : Shape := ⟨2, ![800000, 32]⟩
abbrev S1x32 : Shape := ⟨2, ![1, 32]⟩
abbrev S800000x128 : Shape := ⟨2, ![800000, 128]⟩
abbrev S800000x288 : Shape := ⟨2, ![800000, 288]⟩
abbrev S1x128 : Shape := ⟨2, ![1, 128]⟩
abbrev S50000x256 : Shape := ⟨2, ![50000, 256]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S3x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S288x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x3, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x3, .f32⟩
  | .hbm, ⟨37, _⟩ => ⟨S800000x3, .f32⟩
  | .hbm, ⟨38, _⟩ => ⟨S800000x32, .f32⟩
  | .hbm, ⟨39, _⟩ => ⟨S1x32, .f32⟩
  | .hbm, ⟨40, _⟩ => ⟨S800000x32, .f32⟩
  | .hbm, ⟨41, _⟩ => ⟨S800000x32, .f32⟩
  | .hbm, ⟨42, _⟩ => ⟨S_, .f32⟩
  | .hbm, ⟨43, _⟩ => ⟨S800000x32, .f32⟩
  | .hbm, ⟨44, _⟩ => ⟨S800000x32, .f32⟩
  | .hbm, ⟨45, _⟩ => ⟨S800000x32, .f32⟩
  | .hbm, ⟨46, _⟩ => ⟨S1x32, .f32⟩
  | .hbm, ⟨47, _⟩ => ⟨S800000x32, .f32⟩
  | .hbm, ⟨48, _⟩ => ⟨S800000x32, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x288, .f32⟩
  | .hbm, ⟨68, _⟩ => ⟨S800000x128, .f32⟩
  | .hbm, ⟨69, _⟩ => ⟨S1x128, .f32⟩
  | .hbm, ⟨70, _⟩ => ⟨S800000x128, .f32⟩
  | .hbm, ⟨71, _⟩ => ⟨S800000x128, .f32⟩
  | .hbm, ⟨72, _⟩ => ⟨S_, .f32⟩
  | .hbm, ⟨73, _⟩ => ⟨S800000x128, .f32⟩
  | .hbm, ⟨74, _⟩ => ⟨S800000x128, .f32⟩
  | .hbm, ⟨75, _⟩ => ⟨S800000x128, .f32⟩
  | .hbm, ⟨76, _⟩ => ⟨S1x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x256, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  concatenates_S800000x128_S800000x128_S800000x32_S800000x288_d1 : Shape.Concatenates [S800000x128, S800000x128, S800000x32] S800000x288 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  dot_S800000x3_S3x32_S800000x32_1_0_0_1_n_n_wf : DotDims.WF S800000x3 S3x32 S800000x32 [1] [0] [0] [1] [] []
  dot_S800000x32_S32x32_S800000x32_1_0_0_1_n_n_wf : DotDims.WF S800000x32 S32x32 S800000x32 [1] [0] [0] [1] [] []
  gather_S50000x128_S800000x1_S800000x128_1_0_n_n_0_1_1128_wf : GatherDims.WF S50000x128 S800000x1 S800000x128 [1] [0] [] [0] [] 1 ![1, 128]
  dot_S800000x288_S288x128_S800000x128_1_0_0_1_n_n_wf : DotDims.WF S800000x288 S288x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x3_S3x32_S800000x32_1_0_0_1_n_n : DotDims S800000x3 S3x32 S800000x32 where
  lhsContracting := [1]
  rhsContracting := [0]
  lhsNonContracting := [0]
  rhsNonContracting := [1]
  lhsBatch := []
  rhsBatch := []
  wf := dot_S800000x3_S3x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with its RESULT named.

  @main is four segments: a stretch of host operations, the per-edge kernel over 125 blocks of 6400 edges, a second
  stretch of host operations (the scatter-add of the messages into their destination nodes among them), and the
  per-node kernel over 25 blocks of 2000 nodes.  The buffer contents at the four boundaries are a fold from the launch
  memory (`Gen.W1` … `Gen.W4`).  Every weakly fair execution terminates without a fault in a state whose unscoped
  buffers hold the last boundary's contents `Gen.W4`; read at the result buffer this names the program's result, and
  read at the argument buffers it gives back the launch contents.
-/
import proofs.«109912_j49495203119136_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and every argument array as launched: the launch over the four segments, the last thread state read
    against the final state at the result buffer and at each argument. -/
theorem run_result : θ_run defs (onTc (τ := τ) (main (F := F))) ⟨m, fun _ => 0, ρ⟩ (fun r => ∀ c : Dev nD,
      r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v51 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Run

end
-- ==== Proof.Spec.lean ====
/-
  One position-aware message-passing layer, row by row, on the extended reals.

  An edge `e` carries the feature rows of its two end nodes (`xr`, `xc`, 128 entries each) and their position
  difference `pd` (3 entries).  A two-layer perceptron turns `pd` into 32 position features (`posFeat`); a second
  one turns the 288 numbers `xr ++ xc ++ posFeat` into the edge's message (`msgRow`); after the messages are summed
  into their destination nodes (`g`), a third turns the 256 numbers `x ++ g` into the node's new row (`updRow`).
  Each first layer is written with its weight matrix already cut along the concatenated axis, i.e. as a sum of one
  product per piece; `sum_split3` / `sum_split2` are the law that a sum over the concatenated axis is the sum of the
  sums over the pieces (addition on the extended reals is commutative and associative; nothing finite is needed).
-/
import Idealize.ShloMosaic.PureOps.Ideal
import Mathlib.Algebra.BigOperators.Fin

noncomputable section

namespace Cert.Layer

open Idealize.ShloMosaic

/-- The rectifier `max z 0`. -/
def relu (z : EReal) : EReal := max z 0

/-- The position perceptron: 3 → 32 (rectified) → 32. -/
def posFeat (pd : Fin 3 → EReal) (w1 : Fin 3 → Fin 32 → EReal) (b1 : Fin 32 → EReal)
    (w2 : Fin 32 → Fin 32 → EReal) (b2 : Fin 32 → EReal) (q : Fin 32) : EReal :=
  (∑ p : Fin 32, relu ((∑ d : Fin 3, pd d * w1 d p) + b1 p) * w2 p q) + b2 q

/-- The message perceptron, its first layer cut into the three pieces of its input:
    (128 + 128 + 32) → 128 (rectified) → 128. -/
def msgRow (xr xc : Fin 128 → EReal) (pf : Fin 32 → EReal)
    (wr wc : Fin 128 → Fin 128 → EReal) (wp : Fin 32 → Fin 128 → EReal) (b1 : Fin 128 → EReal)
    (w2 : Fin 128 → Fin 128 → EReal) (b2 : Fin 128 → EReal) (j : Fin 128) : EReal :=
  (∑ k : Fin 128, relu ((((∑ a : Fin 128, xr a * wr a k) + (∑ a : Fin 128, xc a * wc a k))
      + (∑ q : Fin 32, pf q * wp q k)) + b1 k) * w2 k j) + b2 j

/-- The update perceptron, its first layer cut into the two pieces of its input:
    (128 + 128) → 128 (rectified) → 128. -/
def updRow (x g : Fin 128 → EReal) (wx wg : Fin 128 → Fin 128 → EReal) (b1 : Fin 128 → EReal)
    (w2 : Fin 128 → Fin 128 → EReal) (b2 : Fin 128 → EReal) (j : Fin 128) : EReal :=
  (∑ k : Fin 128, relu (((∑ a : Fin 128, x a * wx a k) + (∑ a : Fin 128, g a * wg a k)) + b1 k) * w2 k j) + b2 j

/-- A sum over 256 = 128 + 128 indices is the sum over the first 128 plus the sum over the last 128. -/
theorem sum_split2 (f : Fin 256 → EReal) :
    ∑ a, f a = (∑ a : Fin 128, f ⟨a.val, by omega⟩) + ∑ a : Fin 128, f ⟨128 + a.val, by omega⟩ :=
  Fin.sum_univ_add (M := EReal) (a := 128) (b := 128) f

/-- A sum over 288 = 128 + 128 + 32 indices, piece by piece. -/
theorem sum_split3 (f : Fin 288 → EReal) :
    ∑ a, f a = ((∑ a : Fin 128, f ⟨a.val, by omega⟩) + (∑ a : Fin 128, f ⟨128 + a.val, by omega⟩))
      + ∑ q : Fin 32, f ⟨256 + q.val, by omega⟩ := by
  have h1 := Fin.sum_univ_add (M := EReal) (a := 256) (b := 32) f
  have h2 := sum_split2 fun a : Fin 256 => f ⟨a.val, by omega⟩
  exact h1.trans (congrArg (· + ∑ q : Fin 32, f ⟨256 + q.val, by omega⟩) h2)

end Cert.Layer

end
-- ==== Proof.EdgeBody.lean ====
/-
  The first kernel body's stored block, read at an index.

  The block is one whole-block store of a payload built from six matrix products into zero accumulators, bias rows
  broadcast down the rows, and rectifiers.  Read at row `p` and column `j` it is the message perceptron `msgRow` of the
  two feature rows at `p` and of the position features `posFeat` of the position column at `p` (the position block is
  stored transposed, [3, rows], and its product contracts axis 0 of both operands).
-/
import proofs.«109912_j49495203119136_2_alg».proof.Proof.Gen.KernelIdeal.Frame
import proofs.«109912_j49495203119136_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeBody

open Cert.KernelIdeal Cert.KernelIdeal.Gen Idealize.ShloMosaic Idealize.ShloMosaic.ValueIdx Idealize.SL.Sem

/-! ## The four products, each read at an index as a sum over its one contracted axis -/

theorem dotT_lhs_c (i : S6400x32.Idx) (q : dot_S3x6400_S3x32_S6400x32_0_0_1_1_n_n.contr.Idx) :
    (dot_S3x6400_S3x32_S6400x32_0_0_1_1_n_n.lhsIdx i q 0).val = (q ⟨0, by decide⟩).val :=
  dot_S3x6400_S3x32_S6400x32_0_0_1_1_n_n.lhsIdx_val_of_single rfl i q
theorem dotT_lhs_n (i : S6400x32.Idx) (q : dot_S3x6400_S3x32_S6400x32_0_0_1_1_n_n.contr.Idx) :
    (dot_S3x6400_S3x32_S6400x32_0_0_1_1_n_n.lhsIdx i q 1).val = (i 0).val := by
  unfold DotDims.lhsIdx
  rw [dif_neg (show ¬(1 : Fin S3x6400.rank) ∈ dot_S3x6400_S3x32_S6400x32_0_0_1_1_n_n.lhsBatch by decide), dif_pos (show (1 : Fin S3x6400.rank) ∈ dot_S3x6400_S3x32_S6400x32_0_0_1_1_n_n.lhsNonContracting by decide)]
  rfl
theorem dotT_rhs_c (i : S6400x32.Idx) (q : dot_S3x6400_S3x32_S6400x32_0_0_1_1_n_n.contr.Idx) :
    (dot_S3x6400_S3x32_S6400x32_0_0_1_1_n_n.rhsIdx i q 0).val = (q ⟨0, by decide⟩).val :=
  dot_S3x6400_S3x32_S6400x32_0_0_1_1_n_n.rhsIdx_val_of_single rfl i q
theorem dotT_rhs_n (i : S6400x32.Idx) (q : dot_S3x6400_S3x32_S6400x32_0_0_1_1_n_n.contr.Idx) :
    (dot_S3x6400_S3x32_S6400x32_0_0_1_1_n_n.rhsIdx i q 1).val = (i 1).val := by
  unfold DotDims.rhsIdx
  rw [dif_neg (show ¬(1 : Fin S3x32.rank) ∈ dot_S3x6400_S3x32_S6400x32_0_0_1_1_n_n.rhsBatch by decide), dif_pos (show (1 : Fin S3x32.rank) ∈ dot_S3x6400_S3x32_S6400x32_0_0_1_1_n_n.rhsNonContracting by decide)]
  rfl
/-- The product into the zero accumulator at `(p, q)` is the sum over the contracted axis of the operands' products. -/
theorem dotT_apply {φ₁ φ₂ : FTy} (lhs : FVec Ideal S3x6400 φ₁) (rhs : FVec Ideal S3x32 φ₂) (p : Fin 6400) (q : Fin 32) :
    matmul dot_S3x6400_S3x32_S6400x32_0_0_1_1_n_n none lhs rhs (constant (F := Ideal) S6400x32 .f32 0x00000000#32) (ix2 p q)
      = ∑ k : Fin 3, lhs (ix2 k p) * rhs (ix2 k q) := by
  refine (Ideal.matmul_constant_zero_apply dot_S3x6400_S3x32_S6400x32_0_0_1_1_n_n none lhs rhs (ix2 p q)).trans ?_
  rw [← Equiv.sum_comp (contrEquiv1 dot_S3x6400_S3x32_S6400x32_0_0_1_1_n_n 3 rfl rfl).symm]
  refine Finset.sum_congr rfl fun k _ => ?_
  have hk := contrEquiv1_symm_val dot_S3x6400_S3x32_S6400x32_0_0_1_1_n_n 3 rfl rfl k
  have el : dot_S3x6400_S3x32_S6400x32_0_0_1_1_n_n.lhsIdx (ix2 p q) ((contrEquiv1 dot_S3x6400_S3x32_S6400x32_0_0_1_1_n_n 3 rfl rfl).symm k) = ix2 k p := funext fun a => Fin.ext (by
    match a with
    | ⟨0, _⟩ => exact (dotT_lhs_c _ _).trans hk
    | ⟨1, _⟩ => exact dotT_lhs_n _ _)
  have er : dot_S3x6400_S3x32_S6400x32_0_0_1_1_n_n.rhsIdx (ix2 p q) ((contrEquiv1 dot_S3x6400_S3x32_S6400x32_0_0_1_1_n_n 3 rfl rfl).symm k) = ix2 k q := funext fun a => Fin.ext (by
    match a with
    | ⟨0, _⟩ => exact (dotT_rhs_c _ _).trans hk
    | ⟨1, _⟩ => exact dotT_rhs_n _ _)
  rw [el, er]

theorem dot32_lhs_c (i : S6400x32.Idx) (q : dot_S6400x32_S32x32_S6400x32_1_0_0_1_n_n.contr.Idx) :
    (dot_S6400x32_S32x32_S6400x32_1_0_0_1_n_n.lhsIdx i q 1).val = (q ⟨0, by decide⟩).val :=
  dot_S6400x32_S32x32_S6400x32_1_0_0_1_n_n.lhsIdx_val_of_single rfl i q
theorem dot32_lhs_n (i : S6400x32.Idx) (q : dot_S6400x32_S32x32_S6400x32_1_0_0_1_n_n.contr.Idx) :
    (dot_S6400x32_S32x32_S6400x32_1_0_0_1_n_n.lhsIdx i q 0).val = (i 0).val := by
  unfold DotDims.lhsIdx
  rw [dif_neg (show ¬(0 : Fin S6400x32.rank) ∈ dot_S6400x32_S32x32_S6400x32_1_0_0_1_n_n.lhsBatch by decide), dif_pos (show (0 : Fin S6400x32.rank) ∈ dot_S6400x32_S32x32_S6400x32_1_0_0_1_n_n.lhsNonContracting by decide)]
  rfl
theorem dot32_rhs_c (i : S6400x32.Idx) (q : dot_S6400x32_S32x32_S6400x32_1_0_0_1_n_n.contr.Idx) :
    (dot_S6400x32_S32x32_S6400x32_1_0_0_1_n_n.rhsIdx i q 0).val = (q ⟨0, by decide⟩).val :=
  dot_S6400x32_S32x32_S6400x32_1_0_0_1_n_n.rhsIdx_val_of_single rfl i q
theorem dot32_rhs_n (i : S6400x32.Idx) (q : dot_S6400x32_S32x32_S6400x32_1_0_0_1_n_n.contr.Idx) :
    (dot_S6400x32_S32x32_S6400x32_1_0_0_1_n_n.rhsIdx i q 1).val = (i 1).val := by
  unfold DotDims.rhsIdx
  rw [dif_neg (show ¬(1 : Fin S32x32.rank) ∈ dot_S6400x32_S32x32_S6400x32_1_0_0_1_n_n.rhsBatch by decide), dif_pos (show (1 : Fin S32x32.rank) ∈ dot_S6400x32_S32x32_S6400x32_1_0_0_1_n_n.rhsNonContracting by decide)]
  rfl
/-- The product into the zero accumulator at `(p, q)` is the sum over the contracted axis of the operands' products. -/
theorem dot32_apply {φ₁ φ₂ : FTy} (lhs : FVec Ideal S6400x32 φ₁) (rhs : FVec Ideal S32x32 φ₂) (p : Fin 6400) (q : Fin 32) :
    matmul dot_S6400x32_S32x32_S6400x32_1_0_0_1_n_n none lhs rhs (constant (F := Ideal) S6400x32 .f32 0x00000000#32) (ix2 p q)
      = ∑ k : Fin 32, lhs (ix2 p k) * rhs (ix2 k q) := by
  refine (Ideal.matmul_constant_zero_apply dot_S6400x32_S32x32_S6400x32_1_0_0_1_n_n none lhs rhs (ix2 p q)).trans ?_
  rw [← Equiv.sum_comp (contrEquiv1 dot_S6400x32_S32x32_S6400x32_1_0_0_1_n_n 32 rfl rfl).symm]
  refine Finset.sum_congr rfl fun k _ => ?_
  have hk := contrEquiv1_symm_val dot_S6400x32_S32x32_S6400x32_1_0_0_1_n_n 32 rfl rfl k
  have el : dot_S6400x32_S32x32_S6400x32_1_0_0_1_n_n.lhsIdx (ix2 p q) ((contrEquiv1 dot_S6400x32_S32x32_S6400x32_1_0_0_1_n_n 32 rfl rfl).symm k) = ix2 p k := funext fun a => Fin.ext (by
    match a with
    | ⟨1, _⟩ => exact (dot32_lhs_c _ _).trans hk
    | ⟨0, _⟩ => exact dot32_lhs_n _ _)
  have er : dot_S6400x32_S32x32_S6400x32_1_0_0_1_n_n.rhsIdx (ix2 p q) ((contrEquiv1 dot_S6400x32_S32x32_S6400x32_1_0_0_1_n_n 32 rfl rfl).symm k) = ix2 k q := funext fun a => Fin.ext (by
    match a with
    | ⟨0, _⟩ => exact (dot32_rhs_c _ _).trans hk
    | ⟨1, _⟩ => exact dot32_rhs_n _ _)
  rw [el, er]

theorem dot128_lhs_c (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem dot128_lhs_n (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem dot128_rhs_c (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem dot128_rhs_n (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl
/-- The product into the zero accumulator at `(p, q)` is the sum over the contracted axis of the operands' products. -/
theorem dot128_apply {φ₁ φ₂ : FTy} (lhs : FVec Ideal S6400x128 φ₁) (rhs : FVec Ideal S128x128 φ₂) (p : Fin 6400) (q : Fin 128) :
    matmul dot_S6400x128_S128x128_S6400x128_1_0_0_1_n_n none lhs rhs (constant (F := Ideal) S6400x128 .f32 0x00000000#32) (ix2 p q)
      = ∑ k : Fin 128, lhs (ix2 p k) * rhs (ix2 k q) := by
  refine (Ideal.matmul_constant_zero_apply dot_S6400x128_S128x128_S6400x128_1_0_0_1_n_n none lhs rhs (ix2 p q)).trans ?_
  rw [← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p q) ((contrEquiv1 dot_S6400x128_S128x128_S6400x128_1_0_0_1_n_n 128 rfl rfl).symm k) = ix2 p k := funext fun a => Fin.ext (by
    match a with
    | ⟨1, _⟩ => exact (dot128_lhs_c _ _).trans hk
    | ⟨0, _⟩ => exact dot128_lhs_n _ _)
  have er : dot_S6400x128_S128x128_S6400x128_1_0_0_1_n_n.rhsIdx (ix2 p q) ((contrEquiv1 dot_S6400x128_S128x128_S6400x128_1_0_0_1_n_n 128 rfl rfl).symm k) = ix2 k q := funext fun a => Fin.ext (by
    match a with
    | ⟨0, _⟩ => exact (dot128_rhs_c _ _).trans hk
    | ⟨1, _⟩ => exact dot128_rhs_n _ _)
  rw [el, er]

theorem dotP_lhs_c (i : S6400x128.Idx) (q : dot_S6400x32_S32x128_S6400x128_1_0_0_1_n_n.contr.Idx) :
    (dot_S6400x32_S32x128_S6400x128_1_0_0_1_n_n.lhsIdx i q 1).val = (q ⟨0, by decide⟩).val :=
  dot_S6400x32_S32x128_S6400x128_1_0_0_1_n_n.lhsIdx_val_of_single rfl i q
theorem dotP_lhs_n (i : S6400x128.Idx) (q : dot_S6400x32_S32x128_S6400x128_1_0_0_1_n_n.contr.Idx) :
    (dot_S6400x32_S32x128_S6400x128_1_0_0_1_n_n.lhsIdx i q 0).val = (i 0).val := by
  unfold DotDims.lhsIdx
  rw [dif_neg (show ¬(0 : Fin S6400x32.rank) ∈ dot_S6400x32_S32x128_S6400x128_1_0_0_1_n_n.lhsBatch by decide), dif_pos (show (0 : Fin S6400x32.rank) ∈ dot_S6400x32_S32x128_S6400x128_1_0_0_1_n_n.lhsNonContracting by decide)]
  rfl
theorem dotP_rhs_c (i : S6400x128.Idx) (q : dot_S6400x32_S32x128_S6400x128_1_0_0_1_n_n.contr.Idx) :
    (dot_S6400x32_S32x128_S6400x128_1_0_0_1_n_n.rhsIdx i q 0).val = (q ⟨0, by decide⟩).val :=
  dot_S6400x32_S32x128_S6400x128_1_0_0_1_n_n.rhsIdx_val_of_single rfl i q
theorem dotP_rhs_n (i : S6400x128.Idx) (q : dot_S6400x32_S32x128_S6400x128_1_0_0_1_n_n.contr.Idx) :
    (dot_S6400x32_S32x128_S6400x128_1_0_0_1_n_n.rhsIdx i q 1).val = (i 1).val := by
  unfold DotDims.rhsIdx
  rw [dif_neg (show ¬(1 : Fin S32x128.rank) ∈ dot_S6400x32_S32x128_S6400x128_1_0_0_1_n_n.rhsBatch by decide), dif_pos (show (1 : Fin S32x128.rank) ∈ dot_S6400x32_S32x128_S6400x128_1_0_0_1_n_n.rhsNonContracting by decide)]
  rfl
/-- The product into the zero accumulator at `(p, q)` is the sum over the contracted axis of the operands' products. -/
theorem dotP_apply {φ₁ φ₂ : FTy} (lhs : FVec Ideal S6400x32 φ₁) (rhs : FVec Ideal S32x128 φ₂) (p : Fin 6400) (q : Fin 128) :
    matmul dot_S6400x32_S32x128_S6400x128_1_0_0_1_n_n none lhs rhs (constant (F := Ideal) S6400x128 .f32 0x00000000#32) (ix2 p q)
      = ∑ k : Fin 32, lhs (ix2 p k) * rhs (ix2 k q) := by
  refine (Ideal.matmul_constant_zero_apply dot_S6400x32_S32x128_S6400x128_1_0_0_1_n_n none lhs rhs (ix2 p q)).trans ?_
  rw [← Equiv.sum_comp (contrEquiv1 dot_S6400x32_S32x128_S6400x128_1_0_0_1_n_n 32 rfl rfl).symm]
  refine Finset.sum_congr rfl fun k _ => ?_
  have hk := contrEquiv1_symm_val dot_S6400x32_S32x128_S6400x128_1_0_0_1_n_n 32 rfl rfl k
  have el : dot_S6400x32_S32x128_S6400x128_1_0_0_1_n_n.lhsIdx (ix2 p q) ((contrEquiv1 dot_S6400x32_S32x128_S6400x128_1_0_0_1_n_n 32 rfl rfl).symm k) = ix2 p k := funext fun a => Fin.ext (by
    match a with
    | ⟨1, _⟩ => exact (dotP_lhs_c _ _).trans hk
    | ⟨0, _⟩ => exact dotP_lhs_n _ _)
  have er : dot_S6400x32_S32x128_S6400x128_1_0_0_1_n_n.rhsIdx (ix2 p q) ((contrEquiv1 dot_S6400x32_S32x128_S6400x128_1_0_0_1_n_n 32 rfl rfl).symm k) = ix2 k q := funext fun a => Fin.ext (by
    match a with
    | ⟨0, _⟩ => exact (dotP_rhs_c _ _).trans hk
    | ⟨1, _⟩ => exact dotP_rhs_n _ _)
  rw [el, er]

/-! ## The position features: the payload `k0_pay4` at `(p, q)` -/

/-- The payload as one tree of operations, the same-shape casts removed. -/
theorem pay4_eq (v4 : Vec Ideal S3x6400 .f32) (v7 : Vec Ideal S3x32 .f32) (v9 : Vec Ideal S1x32 .f32) (v11 : Vec Ideal S32x32 .f32) (v13 : Vec Ideal S1x32 .f32) :
    k0_pay4 (F := Ideal) v4 v7 v9 v11 v13
      = addf (matmul dot_S6400x32_S32x32_S6400x32_1_0_0_1_n_n none
            (truncf .bf16 (maximumf (addf (matmul dot_S3x6400_S3x32_S6400x32_0_0_1_1_n_n none (truncf .bf16 v4 bitsLt_bf16_f32) (truncf .bf16 v7 bitsLt_bf16_f32) (constant (F := Ideal) S6400x32 .f32 0x00000000#32))
                (broadcastTo S6400x32 v9 broadcasts_S1x32_S6400x32)) (broadcast S6400x32 (Scalar.ofBits (F := Ideal) .f32 0x00000000#32))) bitsLt_bf16_f32)
            (truncf .bf16 v11 bitsLt_bf16_f32) (constant (F := Ideal) S6400x32 .f32 0x00000000#32))
          (broadcastTo S6400x32 v13 broadcasts_S1x32_S6400x32) := by
  unfold k0_pay4
  simp only [shapeCast_self]

/-- The hidden layer of the position perceptron at `(p, a)`. -/
theorem pos_hidden_apply (v4 : Vec Ideal S3x6400 .f32) (v7 : Vec Ideal S3x32 .f32) (v9 : Vec Ideal S1x32 .f32) (p : Fin 6400) (a : Fin 32) :
    (truncf .bf16 (maximumf (addf (matmul dot_S3x6400_S3x32_S6400x32_0_0_1_1_n_n none (truncf .bf16 v4 bitsLt_bf16_f32) (truncf .bf16 v7 bitsLt_bf16_f32) (constant (F := Ideal) S6400x32 .f32 0x00000000#32))
        (broadcastTo S6400x32 v9 broadcasts_S1x32_S6400x32)) (broadcast S6400x32 (Scalar.ofBits (F := Ideal) .f32 0x00000000#32))) bitsLt_bf16_f32 : FVec Ideal S6400x32 .bf16) (ix2 p a)
      = max ((∑ d : Fin 3, v4 (ix2 d p) * v7 (ix2 d a)) + v9 (ix2 0 a)) 0 := by
  show max (matmul dot_S3x6400_S3x32_S6400x32_0_0_1_1_n_n none (truncf .bf16 v4 bitsLt_bf16_f32) (truncf .bf16 v7 bitsLt_bf16_f32) (constant (F := Ideal) S6400x32 .f32 0x00000000#32) (ix2 p a)
        + broadcastTo S6400x32 v9 broadcasts_S1x32_S6400x32 (ix2 p a)) (Ideal.ofBits .f32 0x00000000#32) = _
  rw [dotT_apply, broadcastTo_1b_ab_apply, Ideal.ofBits_zero_f32]
  rfl

/-- The position payload at `(p, q)`: 3 → 32 (rectified) → 32. -/
theorem pay4_apply (v4 : Vec Ideal S3x6400 .f32) (v7 : Vec Ideal S3x32 .f32) (v9 : Vec Ideal S1x32 .f32) (v11 : Vec Ideal S32x32 .f32) (v13 : Vec Ideal S1x32 .f32) (p : Fin 6400) (q : Fin 32) :
    k0_pay4 (F := Ideal) v4 v7 v9 v11 v13 (ix2 p q)
      = (∑ a : Fin 32, max ((∑ d : Fin 3, v4 (ix2 d p) * v7 (ix2 d a)) + v9 (ix2 0 a)) 0 * v11 (ix2 a q)) + v13 (ix2 0 q) := by
  rw [pay4_eq]
  refine (addf_apply _ _ _).trans ?_
  rw [dot32_apply, broadcastTo_1b_ab_apply]
  refine congrArg (· + v13 (ix2 0 q)) (Finset.sum_congr rfl fun a _ => ?_)
  rw [pos_hidden_apply]
  rfl

/-! ## The message: the payload `k0_pay1` at `(p, j)` -/

/-- The payload as one tree of operations, the same-shape casts removed. -/
theorem pay1_eq (v1 v3 : FVec Ideal S6400x128 .bf16) (v23 : FVec Ideal S6400x32 .f32) (v26 v29 : FVec Ideal S128x128 .bf16) (v32 : FVec Ideal S32x128 .bf16) (v33 : Vec Ideal S1x128 .f32) (v35 : Vec Ideal S128x128 .f32) (v37 : Vec Ideal S1x128 .f32) :
    k0_pay1 (F := Ideal) v1 v3 v23 v26 v29 v32 v33 v35 v37
      = truncf .bf16 (addf (matmul dot_S6400x128_S128x128_S6400x128_1_0_0_1_n_n none
            (truncf .bf16 (maximumf (addf (addf (addf (matmul dot_S6400x128_S128x128_S6400x128_1_0_0_1_n_n none v1 v26 (constant (F := Ideal) S6400x128 .f32 0x00000000#32)) (matmul dot_S6400x128_S128x128_S6400x128_1_0_0_1_n_n none v3 v29 (constant (F := Ideal) S6400x128 .f32 0x00000000#32))) (matmul dot_S6400x32_S32x128_S6400x128_1_0_0_1_n_n none (truncf .bf16 v23 bitsLt_bf16_f32) v32 (constant (F := Ideal) S6400x128 .f32 0x00000000#32)))
        (broadcastTo S6400x128 v33 broadcasts_S1x128_S6400x128)) (broadcast S6400x128 (Scalar.ofBits (F := Ideal) .f32 0x00000000#32))) bitsLt_bf16_f32 : FVec Ideal S6400x128 .bf16)
            (truncf .bf16 v35 bitsLt_bf16_f32) (constant (F := Ideal) S6400x128 .f32 0x00000000#32))
          (broadcastTo S6400x128 v37 broadcasts_S1x128_S6400x128)) bitsLt_bf16_f32 := by
  unfold k0_pay1
  simp only [shapeCast_self]

/-- The hidden layer of the message perceptron at `(p, k)`: the three pieces of its first layer, the bias, the rectifier. -/
theorem msg_hidden_apply (v1 v3 : FVec Ideal S6400x128 .bf16) (v23 : FVec Ideal S6400x32 .f32) (v26 v29 : FVec Ideal S128x128 .bf16) (v32 : FVec Ideal S32x128 .bf16) (v33 : Vec Ideal S1x128 .f32) (p : Fin 6400) (k : Fin 128) :
    (truncf .bf16 (maximumf (addf (addf (addf (matmul dot_S6400x128_S128x128_S6400x128_1_0_0_1_n_n none v1 v26 (constant (F := Ideal) S6400x128 .f32 0x00000000#32)) (matmul dot_S6400x128_S128x128_S6400x128_1_0_0_1_n_n none v3 v29 (constant (F := Ideal) S6400x128 .f32 0x00000000#32))) (matmul dot_S6400x32_S32x128_S6400x128_1_0_0_1_n_n none (truncf .bf16 v23 bitsLt_bf16_f32) v32 (constant (F := Ideal) S6400x128 .f32 0x00000000#32)))
        (broadcastTo S6400x128 v33 broadcasts_S1x128_S6400x128)) (broadcast S6400x128 (Scalar.ofBits (F := Ideal) .f32 0x00000000#32))) bitsLt_bf16_f32 : FVec Ideal S6400x128 .bf16) (ix2 p k)
      = max ((((∑ a : Fin 128, v1 (ix2 p a) * v26 (ix2 a k)) + (∑ a : Fin 128, v3 (ix2 p a) * v29 (ix2 a k)))
          + (∑ q : Fin 32, v23 (ix2 p q) * v32 (ix2 q k))) + v33 (ix2 0 k)) 0 := by
  show max (((matmul dot_S6400x128_S128x128_S6400x128_1_0_0_1_n_n none v1 v26 (constant (F := Ideal) S6400x128 .f32 0x00000000#32) (ix2 p k) + matmul dot_S6400x128_S128x128_S6400x128_1_0_0_1_n_n none v3 v29 (constant (F := Ideal) S6400x128 .f32 0x00000000#32) (ix2 p k))
        + matmul dot_S6400x32_S32x128_S6400x128_1_0_0_1_n_n none (truncf .bf16 v23 bitsLt_bf16_f32) v32 (constant (F := Ideal) S6400x128 .f32 0x00000000#32) (ix2 p k))
        + broadcastTo S6400x128 v33 broadcasts_S1x128_S6400x128 (ix2 p k)) (Ideal.ofBits .f32 0x00000000#32) = _
  rw [dot128_apply, dot128_apply, dotP_apply, broadcastTo_1b_ab_apply, Ideal.ofBits_zero_f32]
  rfl

/-- The message payload at `(p, j)`: (128 + 128 + 32) → 128 (rectified) → 128. -/
theorem pay1_apply (v1 v3 : FVec Ideal S6400x128 .bf16) (v23 : FVec Ideal S6400x32 .f32) (v26 v29 : FVec Ideal S128x128 .bf16) (v32 : FVec Ideal S32x128 .bf16) (v33 : Vec Ideal S1x128 .f32) (v35 : Vec Ideal S128x128 .f32) (v37 : Vec Ideal S1x128 .f32) (p : Fin 6400) (j : Fin 128) :
    k0_pay1 (F := Ideal) v1 v3 v23 v26 v29 v32 v33 v35 v37 (ix2 p j)
      = (∑ k : Fin 128, max ((((∑ a : Fin 128, v1 (ix2 p a) * v26 (ix2 a k)) + (∑ a : Fin 128, v3 (ix2 p a) * v29 (ix2 a k)))
          + (∑ q : Fin 32, v23 (ix2 p q) * v32 (ix2 q k))) + v33 (ix2 0 k)) 0 * v35 (ix2 k j)) + v37 (ix2 0 j) := by
  rw [pay1_eq]
  show matmul dot_S6400x128_S128x128_S6400x128_1_0_0_1_n_n none
        (truncf .bf16 (maximumf (addf (addf (addf (matmul dot_S6400x128_S128x128_S6400x128_1_0_0_1_n_n none v1 v26 (constant (F := Ideal) S6400x128 .f32 0x00000000#32)) (matmul dot_S6400x128_S128x128_S6400x128_1_0_0_1_n_n none v3 v29 (constant (F := Ideal) S6400x128 .f32 0x00000000#32))) (matmul dot_S6400x32_S32x128_S6400x128_1_0_0_1_n_n none (truncf .bf16 v23 bitsLt_bf16_f32) v32 (constant (F := Ideal) S6400x128 .f32 0x00000000#32)))
        (broadcastTo S6400x128 v33 broadcasts_S1x128_S6400x128)) (broadcast S6400x128 (Scalar.ofBits (F := Ideal) .f32 0x00000000#32))) bitsLt_bf16_f32 : FVec Ideal S6400x128 .bf16)
        (truncf .bf16 v35 bitsLt_bf16_f32) (constant (F := Ideal) S6400x128 .f32 0x00000000#32) (ix2 p j)
      + broadcastTo S6400x128 v37 broadcasts_S1x128_S6400x128 (ix2 p j) = _
  rw [dot128_apply, broadcastTo_1b_ab_apply]
  refine congrArg (· + v37 (ix2 0 j)) (Finset.sum_congr rfl fun k _ => ?_)
  rw [msg_hidden_apply]
  rfl

/-! ## The stored block at `(p, j)` -/

/-- The block's store starts at the origin. -/
theorem hz : (![0, 0] : Fin 2 → Nat) = fun _ => 0 := funext fun a => by fin_cases a <;> rfl

/-- A feature block cast to its own shape is itself. -/
theorem pay2_eq (x : Vec Ideal S6400x128 .bf16) : k0_pay2 (F := Ideal) x = x := by
  unfold k0_pay2; exact shapeCast_self _ _
theorem pay3_eq (x : Vec Ideal S6400x128 .bf16) : k0_pay3 (F := Ideal) x = x := by
  unfold k0_pay3; exact shapeCast_self _ _
/-- A weight block cast to its own shape and narrowed reads, at the extended reals, as itself. -/
theorem pay5_apply (x : Vec Ideal S128x128 .f32) (i : S128x128.Idx) : k0_pay5 (F := Ideal) x i = x i := by
  unfold k0_pay5; simp only [shapeCast_self]; rfl
theorem pay6_apply (x : Vec Ideal S128x128 .f32) (i : S128x128.Idx) : k0_pay6 (F := Ideal) x i = x i := by
  unfold k0_pay6; simp only [shapeCast_self]; rfl
theorem pay7_apply (x : Vec Ideal S32x128 .f32) (i : S32x128.Idx) : k0_pay7 (F := Ideal) x i = x i := by
  unfold k0_pay7; simp only [shapeCast_self]; rfl

/-- The stored block at `(p, j)`, every sum written out. -/
theorem edge_payload_sum (x0 x1 : Vec Ideal S6400x128 .bf16) (x2 : Vec Ideal S3x6400 .f32) (x3 : Vec Ideal S3x32 .f32) (x4 : Vec Ideal S1x32 .f32) (x5 : Vec Ideal S32x32 .f32) (x6 : Vec Ideal S1x32 .f32) (x7 x8 : Vec Ideal S128x128 .f32) (x9 : Vec Ideal S32x128 .f32) (x10 : Vec Ideal S1x128 .f32) (x11 : Vec Ideal S128x128 .f32) (x12 : Vec Ideal S1x128 .f32) (p : Fin 6400) (j : Fin 128) :
    out0_13 (F := Ideal) x0 x1 x2 x3 x4 x5 x6 x7 x8 x9 x10 x11 x12 (ix2 p j)
      = (∑ k : Fin 128, max ((((∑ a : Fin 128, x0 (ix2 p a) * x7 (ix2 a k)) + (∑ a : Fin 128, x1 (ix2 p a) * x8 (ix2 a k)))
          + (∑ q : Fin 32, ((∑ a : Fin 32, max ((∑ d : Fin 3, x2 (ix2 d p) * x3 (ix2 d a)) + x4 (ix2 0 a)) 0 * x5 (ix2 a q)) + x6 (ix2 0 q)) * x9 (ix2 q k)))
          + x10 (ix2 0 k)) 0 * x11 (ix2 k j)) + x12 (ix2 0 j) := by
  unfold out0_13
  rw [View.canon_unit_zero hz]
  simp only [View.ld_unit_zero (S := S6400x128) hz, View.ld_unit_zero (S := S3x6400) hz, View.ld_unit_zero (S := S3x32) hz,
    View.ld_unit_zero (S := S1x32) hz, View.ld_unit_zero (S := S32x32) hz, View.ld_unit_zero (S := S128x128) hz,
    View.ld_unit_zero (S := S32x128) hz, View.ld_unit_zero (S := S1x128) hz]
  rw [pay1_apply, pay2_eq, pay3_eq]
  simp only [pay4_apply, pay5_apply, pay6_apply, pay7_apply]

/-- The position payload at `(p, q)` is the position perceptron of the position column at `p`. -/
theorem pay4_posFeat (v4 : Vec Ideal S3x6400 .f32) (v7 : Vec Ideal S3x32 .f32) (v9 : Vec Ideal S1x32 .f32) (v11 : Vec Ideal S32x32 .f32) (v13 : Vec Ideal S1x32 .f32) (p : Fin 6400) (q : Fin 32) :
    k0_pay4 (F := Ideal) v4 v7 v9 v11 v13 (ix2 p q)
      = Cert.Layer.posFeat (fun d => v4 (ix2 d p)) (fun d q => v7 (ix2 d q)) (fun q => v9 (ix2 0 q)) (fun a q => v11 (ix2 a q)) (fun q => v13 (ix2 0 q)) q :=
  (pay4_apply v4 v7 v9 v11 v13 p q).trans rfl

/-- THE STORED BLOCK AT `(p, j)`: the message perceptron of the two feature rows at `p` and of the position features of
    the position column at `p`. -/
theorem edge_payload (x0 x1 : Vec Ideal S6400x128 .bf16) (x2 : Vec Ideal S3x6400 .f32) (x3 : Vec Ideal S3x32 .f32) (x4 : Vec Ideal S1x32 .f32) (x5 : Vec Ideal S32x32 .f32) (x6 : Vec Ideal S1x32 .f32) (x7 x8 : Vec Ideal S128x128 .f32) (x9 : Vec Ideal S32x128 .f32) (x10 : Vec Ideal S1x128 .f32) (x11 : Vec Ideal S128x128 .f32) (x12 : Vec Ideal S1x128 .f32) (p : Fin 6400) (j : Fin 128) :
    out0_13 (F := Ideal) x0 x1 x2 x3 x4 x5 x6 x7 x8 x9 x10 x11 x12 (ix2 p j)
      = Cert.Layer.msgRow (fun a => x0 (ix2 p a)) (fun a => x1 (ix2 p a))
          (Cert.Layer.posFeat (fun d => x2 (ix2 d p)) (fun d q => x3 (ix2 d q)) (fun q => x4 (ix2 0 q)) (fun a q => x5 (ix2 a q)) (fun q => x6 (ix2 0 q)))
          (fun a k => x7 (ix2 a k)) (fun a k => x8 (ix2 a k)) (fun q k => x9 (ix2 q k)) (fun k => x10 (ix2 0 k)) (fun k j' => x11 (ix2 k j')) (fun k => x12 (ix2 0 k)) j :=
  (edge_payload_sum x0 x1 x2 x3 x4 x5 x6 x7 x8 x9 x10 x11 x12 p j).trans rfl

end Cert.KernelIdeal.EdgeBody

end
-- ==== Proof.EdgeArr.lean ====
/-
  The message array after the per-edge kernel.

  The kernel runs at 125 grid points; point `t` stages rows `6400 t … 6400 t + 6399` of the two gathered feature arrays,
  columns `6400 t …` of the transposed position differences, and the weight and bias arrays whole, and writes back
  rows `6400 t …` of the message array.  Read at a row, what it writes back is that edge's message (`Cert.Layer.msgRow`
  of the edge's rows), and the 125 blocks fill the array: the array ends as ONE function `G0` of the arrays the kernel
  reads, whatever those hold when the region is entered.
-/
import proofs.«109912_j49495203119136_2_alg».proof.Proof.Gen.KernelIdeal.Frame
import proofs.«109912_j49495203119136_2_alg».proof.Proof.Spec
import proofs.«109912_j49495203119136_2_alg».proof.Proof.EdgeBody
import Idealize.ShloMosaic.Lib.Pipeline.Value
import Idealize.ShloMosaic.Lib.ValueIdx

set_option maxRecDepth 16384

noncomputable section

namespace Cert.KernelIdeal.EdgeArr

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.KernelIdeal.EdgeBody (edge_payload)

/-- The printed index maps over the 125 grid points: the edge-indexed windows sit at block `t` on the edge axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_13.index t (0 : Fin 2) = t.val ∧ win0_13.index t (1 : Fin 2) = 0 :=
  (by decide +kernel : ∀ t : Fin grid0.N, _)

/-- The weight and bias windows sit at block 0 at every point. -/
theorem idx_const : ∀ t : Fin cfg0.N, ∀ ax : Fin 2,
    win0_3.index t ax = 0 ∧ win0_4.index t ax = 0 ∧ win0_5.index t ax = 0 ∧ win0_6.index t ax = 0 ∧ win0_7.index t ax = 0
    ∧ win0_8.index t ax = 0 ∧ win0_9.index t ax = 0 ∧ win0_10.index t ax = 0 ∧ win0_11.index t ax = 0 ∧ win0_12.index t ax = 0 :=
  (by decide +kernel : ∀ t : Fin grid0.N, _)

theorem hN0 : cfg0.N = 125 := N_0

/-- Edge `t * 6400 + p`, the `p`-th edge of block `t`. -/
def edgeOf (t : Fin cfg0.N) (p : Fin 6400) : Fin 800000 := ⟨t.val * 6400 + p.val, by have := t.isLt; have := hN0; omega⟩

variable (V : (c : Dev nD) → (b : Ref sig .tc) → Buf (Elt Ideal) ((c : Thread nD τ).loc b)) (c : Dev nD)

theorem blk0_0 (t : Fin cfg0.N) (p : Fin 6400) (a : Fin 128) : iblk0 V c 0 t (ix2 p a) = (V c main_v11 : S800000x128.Idx → EReal) (ix2 (edgeOf t p) a) := by
  show (V c main_v11 : S800000x128.Idx → EReal) (((cfg0.win 0).blk t).view.emb (ix2 p a)) = _
  refine congrArg _ (funext fun ax => Fin.ext ?_)
  obtain ⟨e0, e1, -⟩ := idx_facts t
  match ax with
  | ⟨0, _⟩ => show win0_0.index t (0 : Fin 2) * 6400 + 1 * p.val = t.val * 6400 + p.val; rw [e0]; omega
  | ⟨1, _⟩ => show win0_0.index t (1 : Fin 2) * 128 + 1 * a.val = a.val; rw [e1]; omega

theorem blk0_1 (t : Fin cfg0.N) (p : Fin 6400) (a : Fin 128) : iblk0 V c 1 t (ix2 p a) = (V c main_v18 : S800000x128.Idx → EReal) (ix2 (edgeOf t p) a) := by
  show (V c main_v18 : S800000x128.Idx → EReal) (((cfg0.win 1).blk t).view.emb (ix2 p a)) = _
  refine congrArg _ (funext fun ax => Fin.ext ?_)
  obtain ⟨-, -, e0, e1, -⟩ := idx_facts t
  match ax with
  | ⟨0, _⟩ => show win0_1.index t (0 : Fin 2) * 6400 + 1 * p.val = t.val * 6400 + p.val; rw [e0]; omega
  | ⟨1, _⟩ => show win0_1.index t (1 : Fin 2) * 128 + 1 * a.val = a.val; rw [e1]; omega

theorem blk0_2 (t : Fin cfg0.N) (d : Fin 3) (p : Fin 6400) : iblk0 V c 2 t (ix2 d p) = (V c main_v34 : S3x800000.Idx → EReal) (ix2 d (edgeOf t p)) := by
  show (V c main_v34 : S3x800000.Idx → EReal) (((cfg0.win 2).blk t).view.emb (ix2 d p)) = _
  refine congrArg _ (funext fun ax => Fin.ext ?_)
  obtain ⟨-, -, -, -, e0, e1, -⟩ := idx_facts t
  match ax with
  | ⟨0, _⟩ => show win0_2.index t (0 : Fin 2) * 3 + 1 * d.val = d.val; rw [e0]; omega
  | ⟨1, _⟩ => show win0_2.index t (1 : Fin 2) * 6400 + 1 * p.val = t.val * 6400 + p.val; rw [e1]; omega

theorem blk0_3 (t : Fin cfg0.N) (y : S3x32.Idx) : iblk0 V c 3 t y = (V c main_arg3 : S3x32.Idx → EReal) y := by
  show (V c main_arg3 : S3x32.Idx → EReal) (((cfg0.win 3).blk t).view.emb y) = _
  refine congrArg _ (funext fun ax => Fin.ext ?_)
  match ax with
  | ⟨0, _⟩ => show win0_3.index t (0 : Fin 2) * 3 + 1 * (y 0).val = (y 0).val; rw [(idx_const t 0).1]; omega
  | ⟨1, _⟩ => show win0_3.index t (1 : Fin 2) * 32 + 1 * (y 1).val = (y 1).val; rw [(idx_const t 1).1]; omega

theorem blk0_4 (t : Fin cfg0.N) (y : S1x32.Idx) : iblk0 V c 4 t y = (V c main_v38 : S1x32.Idx → EReal) y := by
  show (V c main_v38 : S1x32.Idx → EReal) (((cfg0.win 4).blk t).view.emb y) = _
  refine congrArg _ (funext fun ax => Fin.ext ?_)
  match ax with
  | ⟨0, _⟩ => show win0_4.index t (0 : Fin 2) * 1 + 1 * (y 0).val = (y 0).val; rw [(idx_const t 0).2.1]; omega
  | ⟨1, _⟩ => show win0_4.index t (1 : Fin 2) * 32 + 1 * (y 1).val = (y 1).val; rw [(idx_const t 1).2.1]; omega

theorem blk0_5 (t : Fin cfg0.N) (y : S32x32.Idx) : iblk0 V c 5 t y = (V c main_arg5 : S32x32.Idx → EReal) y := by
  show (V c main_arg5 : S32x32.Idx → EReal) (((cfg0.win 5).blk t).view.emb y) = _
  refine congrArg _ (funext fun ax => Fin.ext ?_)
  match ax with
  | ⟨0, _⟩ => show win0_5.index t (0 : Fin 2) * 32 + 1 * (y 0).val = (y 0).val; rw [(idx_const t 0).2.2.1]; omega
  | ⟨1, _⟩ => show win0_5.index t (1 : Fin 2) * 32 + 1 * (y 1).val = (y 1).val; rw [(idx_const t 1).2.2.1]; omega

theorem blk0_6 (t : Fin cfg0.N) (y : S1x32.Idx) : iblk0 V c 6 t y = (V c main_v39 : S1x32.Idx → EReal) y := by
  show (V c main_v39 : S1x32.Idx → EReal) (((cfg0.win 6).blk t).view.emb y) = _
  refine congrArg _ (funext fun ax => Fin.ext ?_)
  match ax with
  | ⟨0, _⟩ => show win0_6.index t (0 : Fin 2) * 1 + 1 * (y 0).val = (y 0).val; rw [(idx_const t 0).2.2.2.1]; omega
  | ⟨1, _⟩ => show win0_6.index t (1 : Fin 2) * 32 + 1 * (y 1).val = (y 1).val; rw [(idx_const t 1).2.2.2.1]; omega

theorem blk0_7 (t : Fin cfg0.N) (y : S128x128.Idx) : iblk0 V c 7 t y = (V c main_v35 : S128x128.Idx → EReal) y := by
  show (V c main_v35 : S128x128.Idx → EReal) (((cfg0.win 7).blk t).view.emb y) = _
  refine congrArg _ (funext fun ax => Fin.ext ?_)
  match ax with
  | ⟨0, _⟩ => show win0_7.index t (0 : Fin 2) * 128 + 1 * (y 0).val = (y 0).val; rw [(idx_const t 0).2.2.2.2.1]; omega
  | ⟨1, _⟩ => show win0_7.index t (1 : Fin 2) * 128 + 1 * (y 1).val = (y 1).val; rw [(idx_const t 1).2.2.2.2.1]; omega

theorem blk0_8 (t : Fin cfg0.N) (y : S128x128.Idx) : iblk0 V c 8 t y = (V c main_v36 : S128x128.Idx → EReal) y := by
  show (V c main_v36 : S128x128.Idx → EReal) (((cfg0.win 8).blk t).view.emb y) = _
  refine congrArg _ (funext fun ax => Fin.ext ?_)
  match ax with
  | ⟨0, _⟩ => show win0_8.index t (0 : Fin 2) * 128 + 1 * (y 0).val = (y 0).val; rw [(idx_const t 0).2.2.2.2.2.1]; omega
  | ⟨1, _⟩ => show win0_8.index t (1 : Fin 2) * 128 + 1 * (y 1).val = (y 1).val; rw [(idx_const t 1).2.2.2.2.2.1]; omega

theorem blk0_9 (t : Fin cfg0.N) (y : S32x128.Idx) : iblk0 V c 9 t y = (V c main_v37 : S32x128.Idx → EReal) y := by
  show (V c main_v37 : S32x128.Idx → EReal) (((cfg0.win 9).blk t).view.emb y) = _
  refine congrArg _ (funext fun ax => Fin.ext ?_)
  match ax with
  | ⟨0, _⟩ => show win0_9.index t (0 : Fin 2) * 32 + 1 * (y 0).val = (y 0).val; rw [(idx_const t 0).2.2.2.2.2.2.1]; omega
  | ⟨1, _⟩ => show win0_9.index t (1 : Fin 2) * 128 + 1 * (y 1).val = (y 1).val; rw [(idx_const t 1).2.2.2.2.2.2.1]; omega

theorem blk0_10 (t : Fin cfg0.N) (y : S1x128.Idx) : iblk0 V c 10 t y = (V c main_v40 : S1x128.Idx → EReal) y := by
  show (V c main_v40 : S1x128.Idx → EReal) (((cfg0.win 10).blk t).view.emb y) = _
  refine congrArg _ (funext fun ax => Fin.ext ?_)
  match ax with
  | ⟨0, _⟩ => show win0_10.index t (0 : Fin 2) * 1 + 1 * (y 0).val = (y 0).val; rw [(idx_const t 0).2.2.2.2.2.2.2.1]; omega
  | ⟨1, _⟩ => show win0_10.index t (1 : Fin 2) * 128 + 1 * (y 1).val = (y 1).val; rw [(idx_const t 1).2.2.2.2.2.2.2.1]; omega

theorem blk0_11 (t : Fin cfg0.N) (y : S128x128.Idx) : iblk0 V c 11 t y = (V c main_arg9 : S128x128.Idx → EReal) y := by
  show (V c main_arg9 : S128x128.Idx → EReal) (((cfg0.win 11).blk t).view.emb y) = _
  refine congrArg _ (funext fun ax => Fin.ext ?_)
  match ax with
  | ⟨0, _⟩ => show win0_11.index t (0 : Fin 2) * 128 + 1 * (y 0).val = (y 0).val; rw [(idx_const t 0).2.2.2.2.2.2.2.2.1]; omega
  | ⟨1, _⟩ => show win0_11.index t (1 : Fin 2) * 128 + 1 * (y 1).val = (y 1).val; rw [(idx_const t 1).2.2.2.2.2.2.2.2.1]; omega

theorem blk0_12 (t : Fin cfg0.N) (y : S1x128.Idx) : iblk0 V c 12 t y = (V c main_v41 : S1x128.Idx → EReal) y := by
  show (V c main_v41 : S1x128.Idx → EReal) (((cfg0.win 12).blk t).view.emb y) = _
  refine congrArg _ (funext fun ax => Fin.ext ?_)
  match ax with
  | ⟨0, _⟩ => show win0_12.index t (0 : Fin 2) * 1 + 1 * (y 0).val = (y 0).val; rw [(idx_const t 0).2.2.2.2.2.2.2.2.2]; omega
  | ⟨1, _⟩ => show win0_12.index t (1 : Fin 2) * 128 + 1 * (y 1).val = (y 1).val; rw [(idx_const t 1).2.2.2.2.2.2.2.2.2]; omega

/-- Every edge's message, as one function of the thirteen arrays the edge kernel reads: row `e` of the two gathered
    feature arrays, column `e` of the transposed position differences, and the weights. -/
def G0 (A0 A1 : S800000x128.Idx → EReal) (A2 : S3x800000.Idx → EReal) (A3 : S3x32.Idx → EReal) (A4 : S1x32.Idx → EReal)
    (A5 : S32x32.Idx → EReal) (A6 : S1x32.Idx → EReal) (A7 A8 : S128x128.Idx → EReal) (A9 : S32x128.Idx → EReal)
    (A10 : S1x128.Idx → EReal) (A11 : S128x128.Idx → EReal) (A12 : S1x128.Idx → EReal) : S800000x128.Idx → EReal :=
  fun i => Cert.Layer.msgRow (fun a => A0 (ix2 (i 0 : Fin 800000) a)) (fun a => A1 (ix2 (i 0 : Fin 800000) a))
    (Cert.Layer.posFeat (fun d => A2 (ix2 d (i 0 : Fin 800000))) (fun d q => A3 (ix2 d q)) (fun q => A4 (ix2 0 q)) (fun a q => A5 (ix2 a q)) (fun q => A6 (ix2 0 q)))
    (fun a k => A7 (ix2 a k)) (fun a k => A8 (ix2 a k)) (fun q k => A9 (ix2 q k)) (fun k => A10 (ix2 0 k)) (fun k j' => A11 (ix2 k j')) (fun k => A12 (ix2 0 k)) (i 1 : Fin 128)

/-- What point `t` writes back is block `t` of `G0` of the arrays as the region finds them. -/
theorem flushed0 (t : Fin cfg0.N) :
    (dat0 V c).flushed 13 t = ((cfg0.win 13).blk t).view.read (Elt Ideal) (G0 (V c main_v11) (V c main_v18) (V c main_v34) (V c main_arg3) (V c main_v38) (V c main_arg5) (V c main_v39) (V c main_v35) (V c main_v36) (V c main_v37) (V c main_v40) (V c main_arg9) (V c main_v41)) := by
  show (cfg0.win 13).cut (grid0.coords t) ((dat0 V c).after 13 t) = _
  rw [after0_13]
  funext y
  obtain ⟨p, j, rfl⟩ : ∃ (p : Fin 6400) (j : Fin 128), y = ix2 p j := ⟨y 0, y 1, eq_ix2 y⟩
  have hemb : ((cfg0.win 13).blk t).view.emb (ix2 p j) = (ix2 (edgeOf t p) j : S800000x128.Idx) := by
    funext ax; apply Fin.ext
    obtain ⟨-, -, -, -, -, -, e0, e1⟩ := idx_facts t
    match ax with
    | ⟨0, _⟩ => show win0_13.index t (0 : Fin 2) * 6400 + 1 * p.val = t.val * 6400 + p.val; rw [e0]; omega
    | ⟨1, _⟩ => show win0_13.index t (1 : Fin 2) * 128 + 1 * j.val = j.val; rw [e1]; omega
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p j)
    = G0 (V c main_v11) (V c main_v18) (V c main_v34) (V c main_arg3) (V c main_v38) (V c main_arg5) (V c main_v39) (V c main_v35) (V c main_v36) (V c main_v37) (V c main_v40) (V c main_arg9) (V c main_v41) (((cfg0.win 13).blk t).view.emb (ix2 p j))
  rw [hemb]
  refine (edge_payload (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p j).trans ?_
  simp only [blk0_0, blk0_1, blk0_2, blk0_3, blk0_4, blk0_5, blk0_6, blk0_7, blk0_8, blk0_9, blk0_10, blk0_11, blk0_12]
  rfl

/-- An index of the message array is in point `t`'s block iff each coordinate is in the block's range on its axis. -/
theorem mem_blk0 (t : Fin cfg0.N) (i : S800000x128.Idx) :
    i ∈ ((cfg0.win 13).blk t).view.set ↔ ∀ a : Fin 2, win0_13.index t a * S6400x128.size a ≤ (i a).val ∧ (i a).val < win0_13.index t a * S6400x128.size a + S6400x128.size a := by
  show i ∈ ((View.whole main_v42).slice (win0_13.rect t)).set ↔ _
  rw [View.set_slice_whole, Rect.mem_set_unit]
  exact Iff.rfl

/-- The 125 blocks of 6400 edges fill the message array (edge `e` is in block `e / 6400`), so it ends holding `G0`. -/
theorem final0 : (dat0 V c).arrAt 13 cfg0.N = G0 (V c main_v11) (V c main_v18) (V c main_v34) (V c main_arg3) (V c main_v38) (V c main_arg5) (V c main_v39) (V c main_v35) (V c main_v36) (V c main_v37) (V c main_v40) (V c main_arg9) (V c main_v41) :=
  (dat0 V c).arrAt_eq_of_cover 13 _ (fun t _ => flushed0 V c t) fun i => by
    have hi0 : (i 0).val < 800000 := (i 0).isLt
    have hi1 : (i 1).val < 128 := (i 1).isLt
    have hN := hN0
    refine ⟨⟨(i 0).val / 6400, by omega⟩, flush0_13 _, ?_⟩
    rw [mem_blk0]
    intro a
    obtain ⟨-, -, -, -, -, -, e0, e1⟩ := idx_facts ⟨(i 0).val / 6400, by omega⟩
    match a with
    | ⟨0, _⟩ =>
      show win0_13.index ⟨(i 0).val / 6400, _⟩ (0 : Fin 2) * 6400 ≤ (i 0).val ∧ (i 0).val < win0_13.index ⟨(i 0).val / 6400, _⟩ (0 : Fin 2) * 6400 + 6400
      rw [e0]; show (i 0).val / 6400 * 6400 ≤ (i 0).val ∧ (i 0).val < (i 0).val / 6400 * 6400 + 6400; omega
    | ⟨1, _⟩ =>
      show win0_13.index ⟨(i 0).val / 6400, _⟩ (1 : Fin 2) * 128 ≤ (i 1).val ∧ (i 1).val < win0_13.index ⟨(i 0).val / 6400, _⟩ (1 : Fin 2) * 128 + 128
      rw [e1]; omega

end Cert.KernelIdeal.EdgeArr
end
-- ==== Proof.RefEdge.lean ====
/-
  The reference's per-edge message, read at an index.

  For an edge `e` the reference forms the position difference `pd = pos[row e] − pos[col e]` (3 entries), passes it
  through the position perceptron (3 → 32, rectified, → 32) to get the edge's 32 position features, joins the two
  gathered feature rows and these features into one row of 288 numbers, and passes that row through the message
  perceptron (288 → 128, rectified, → 128).  Read at the entry `(e, j)`, the result is `Cert.Layer.msgRow` of the two
  gathered rows and `Cert.Layer.posFeat` of the position difference, with the first weight matrix cut into its three
  row blocks (rows 0–127, 128–255, 256–287): a sum over the 288 joined columns is the sum of the three sums over the
  pieces, and on each piece the joined row is the corresponding operand.
-/
import proofs.«109912_j49495203119136_2_alg».proof.Proof.Gen.ReferenceIdeal.Read
import proofs.«109912_j49495203119136_2_alg».proof.Proof.Spec

noncomputable section

namespace Cert.ReferenceIdeal.RefEdge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The 32 position features of edge `e`: the position perceptron applied to the position difference. -/
theorem ref_posFeat (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (e : Fin 800000) (q : Fin 32) :
    val_main_v27 (F := Ideal) x1 x2 x3 x4 x5 x6 (ix2 e q)
      = Cert.Layer.posFeat (fun d => val_main_v18 (F := Ideal) x1 x2 (ix2 e d)) (fun d p => x3 (ix2 d p))
          (fun p => x4 (ix1 p)) (fun a p => x5 (ix2 a p)) (fun p => x6 (ix1 p)) q := by
  have l24 : ∀ k : Fin 32, lidx_main_v24 (ix2 e q) k = ix2 e k := fun k => funext fun a => Fin.ext (by
    match a with | ⟨0, _⟩ => rfl | ⟨1, _⟩ => rfl)
  have r24 : ∀ k : Fin 32, ridx_main_v24 (ix2 e q) k = ix2 k q := fun k => funext fun a => Fin.ext (by
    match a with | ⟨0, _⟩ => rfl | ⟨1, _⟩ => rfl)
  have l19 : ∀ (p : Fin 32) (k : Fin 3), lidx_main_v19 (ix2 e p) k = ix2 e k := fun p k => funext fun a => Fin.ext (by
    match a with | ⟨0, _⟩ => rfl | ⟨1, _⟩ => rfl)
  have r19 : ∀ (p : Fin 32) (k : Fin 3), ridx_main_v19 (ix2 e p) k = ix2 k p := fun p k => funext fun a => Fin.ext (by
    match a with | ⟨0, _⟩ => rfl | ⟨1, _⟩ => rfl)
  have b21 : ∀ p : Fin 32, idx_main_v20 (idx_main_v21 (ix2 e p)) = ix1 p := fun p => funext fun a => Fin.ext (by
    match a with | ⟨0, _⟩ => rfl)
  have b26 : idx_main_v25 (idx_main_v26 (ix2 e q)) = ix1 q := funext fun a => Fin.ext (by
    match a with | ⟨0, _⟩ => rfl)
  unfold Cert.Layer.posFeat Cert.Layer.relu
  rw [val_main_v27_apply, val_main_v24_apply, val_main_v26_apply, val_main_v25_apply, b26]
  simp only [l24, r24, val_main_v23_apply, val_main_v22_apply, val_main_v19_apply, val_main_v21_apply, val_main_v20_apply,
    val_main_call0_v0_apply, val_main_call0_cst_apply, l19, r19, b21, Ideal.addf_def, Ideal.maximumf_def, Ideal.ofBits_def,
    Ideal.ofBits_zero_f32]

/-- The joined row on its first piece (columns 0–127) is the row gathered for the edge's first end node. -/
theorem ref_joined_left (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (e : Fin 800000) (a : Fin 128) :
    val_main_v42 (F := Ideal) x0 x1 x2 x3 x4 x5 x6 (ix2 e (⟨a.val, by omega⟩ : Fin 288)) = val_main_v34 (F := Ideal) x0 x2 (ix2 e a) := by
  unfold val_main_v42
  exact concatenate_apply_piece 1 _ _ (ix2 e (⟨a.val, by omega⟩ : Fin 288)) 0 (by show (0 : Nat) < 3; omega) S800000x128
    (val_main_v34 (F := Ideal) x0 x2) rfl rfl 0 rfl (ix2 e a)
    (fun b => match b with
      | ⟨0, _⟩ => fun _ => rfl
      | ⟨1, _⟩ => fun hb => absurd rfl hb)
    (Nat.zero_add _)

/-- The joined row on its second piece (columns 128–255) is the row gathered for the edge's second end node. -/
theorem ref_joined_mid (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (e : Fin 800000) (a : Fin 128) :
    val_main_v42 (F := Ideal) x0 x1 x2 x3 x4 x5 x6 (ix2 e (⟨128 + a.val, by omega⟩ : Fin 288)) = val_main_v41 (F := Ideal) x0 x2 (ix2 e a) := by
  unfold val_main_v42
  exact concatenate_apply_piece 1 _ _ (ix2 e (⟨128 + a.val, by omega⟩ : Fin 288)) 1 (by show (1 : Nat) < 3; omega) S800000x128
    (val_main_v41 (F := Ideal) x0 x2) rfl rfl 128 rfl (ix2 e a)
    (fun b => match b with
      | ⟨0, _⟩ => fun _ => rfl
      | ⟨1, _⟩ => fun hb => absurd rfl hb)
    rfl

/-- The joined row on its third piece (columns 256–287) is the edge's position features. -/
theorem ref_joined_right (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (e : Fin 800000) (q : Fin 32) :
    val_main_v42 (F := Ideal) x0 x1 x2 x3 x4 x5 x6 (ix2 e (⟨256 + q.val, by omega⟩ : Fin 288))
      = val_main_v27 (F := Ideal) x1 x2 x3 x4 x5 x6 (ix2 e q) := by
  unfold val_main_v42
  exact concatenate_apply_piece 1 _ _ (ix2 e (⟨256 + q.val, by omega⟩ : Fin 288)) 2 (by show (2 : Nat) < 3; omega) S800000x32
    (val_main_v27 (F := Ideal) x1 x2 x3 x4 x5 x6) rfl rfl 256 rfl (ix2 e q)
    (fun b => match b with
      | ⟨0, _⟩ => fun _ => rfl
      | ⟨1, _⟩ => fun hb => absurd rfl hb)
    rfl

/-- The first layer's sum over the 288 joined columns, cut into its three pieces. -/
theorem ref_joined_sum (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (e : Fin 800000) (k : Fin 128) :
    ∑ a : Fin 288, val_main_v42 (F := Ideal) x0 x1 x2 x3 x4 x5 x6 (ix2 e a) * x7 (ix2 a k)
      = ((∑ a : Fin 128, val_main_v34 (F := Ideal) x0 x2 (ix2 e a) * x7 (ix2 ⟨a.val, by omega⟩ k))
          + ∑ a : Fin 128, val_main_v41 (F := Ideal) x0 x2 (ix2 e a) * x7 (ix2 ⟨128 + a.val, by omega⟩ k))
        + ∑ q : Fin 32, Cert.Layer.posFeat (fun d => val_main_v18 (F := Ideal) x1 x2 (ix2 e d)) (fun d p => x3 (ix2 d p))
            (fun p => x4 (ix1 p)) (fun a p => x5 (ix2 a p)) (fun p => x6 (ix1 p)) q * x7 (ix2 ⟨256 + q.val, by omega⟩ k) := by
  rw [Cert.Layer.sum_split3 (fun a : Fin 288 => val_main_v42 (F := Ideal) x0 x1 x2 x3 x4 x5 x6 (ix2 e a) * x7 (ix2 a k))]
  simp only [ref_joined_left, ref_joined_mid, ref_joined_right, ref_posFeat]

/-- The reference's message of edge `e`, entry `j`: the message perceptron applied to the two gathered rows and the
    edge's position features, its first layer cut along the three pieces of the joined row. -/
theorem ref_message (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (e : Fin 800000) (j : Fin 128) :
    val_main_v51 (F := Ideal) x0 x1 x2 x3 x4 x5 x6 x7 x8 x9 x10 (ix2 e j)
      = Cert.Layer.msgRow (fun a => val_main_v34 (F := Ideal) x0 x2 (ix2 e a))
          (fun a => val_main_v41 (F := Ideal) x0 x2 (ix2 e a))
          (Cert.Layer.posFeat (fun d => val_main_v18 (F := Ideal) x1 x2 (ix2 e d)) (fun d q => x3 (ix2 d q))
            (fun q => x4 (ix1 q)) (fun a q => x5 (ix2 a q)) (fun q => x6 (ix1 q)))
          (fun a k => x7 (ix2 ⟨a.val, by omega⟩ k)) (fun a k => x7 (ix2 ⟨128 + a.val, by omega⟩ k))
          (fun q k => x7 (ix2 ⟨256 + q.val, by omega⟩ k)) (fun k => x8 (ix1 k)) (fun k j' => x9 (ix2 k j'))
          (fun k => x10 (ix1 k)) j := by
  have l48 : ∀ k : Fin 128, lidx_main_v48 (ix2 e j) k = ix2 e k := fun k => funext fun a => Fin.ext (by
    match a with | ⟨0, _⟩ => rfl | ⟨1, _⟩ => rfl)
  have r48 : ∀ k : Fin 128, ridx_main_v48 (ix2 e j) k = ix2 k j := fun k => funext fun a => Fin.ext (by
    match a with | ⟨0, _⟩ => rfl | ⟨1, _⟩ => rfl)
  have l43 : ∀ (k : Fin 128) (a : Fin 288), lidx_main_v43 (ix2 e k) a = ix2 e a := fun k a => funext fun b => Fin.ext (by
    match b with | ⟨0, _⟩ => rfl | ⟨1, _⟩ => rfl)
  have r43 : ∀ (k : Fin 128) (a : Fin 288), ridx_main_v43 (ix2 e k) a = ix2 a k := fun k a => funext fun b => Fin.ext (by
    match b with | ⟨0, _⟩ => rfl | ⟨1, _⟩ => rfl)
  have b45 : ∀ k : Fin 128, idx_main_v44 (idx_main_v45 (ix2 e k)) = ix1 k := fun k => funext fun a => Fin.ext (by
    match a with | ⟨0, _⟩ => rfl)
  have b50 : idx_main_v49 (idx_main_v50 (ix2 e j)) = ix1 j := funext fun a => Fin.ext (by
    match a with | ⟨0, _⟩ => rfl)
  unfold Cert.Layer.msgRow Cert.Layer.relu
  rw [val_main_v51_apply, val_main_v48_apply, val_main_v50_apply, val_main_v49_apply, b50]
  simp only [l48, r48, val_main_v47_apply, val_main_v46_apply, val_main_v43_apply, val_main_v45_apply, val_main_v44_apply,
    val_main_call1_v0_apply, val_main_call1_cst_apply, l43, r43, b45, Ideal.addf_def, Ideal.maximumf_def, Ideal.ofBits_def,
    Ideal.ofBits_zero_f32]
  refine congrArg (· + x10 (ix1 j)) (Finset.sum_congr rfl fun k _ => ?_)
  rw [ref_joined_sum]

end Cert.ReferenceIdeal.RefEdge

end
-- ==== Proof.Entry.lean ====
/-
  What each window's array holds when its region is entered.

  Before a region runs, a list of host operations (slices, casts, transposes, gathers) is folded over the memory.  Read
  at a window's array, the fold is one operation of the launch arguments: a whole argument, a row block of a weight
  matrix cut along its rows, a bias vector cast to one row, the transposed position differences, or the gathered
  feature rows.  Each lemma below reads one window's array, whole or at an index.
-/
import proofs.«109912_j49495203119136_2_alg».proof.Proof.Gen.KernelIdeal.Frame
import proofs.«109912_j49495203119136_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Region 0: the edge perceptrons' windows -/

/-- Window 0: the feature rows gathered at the edges' first end nodes. -/
theorem in0_0 : (V1 m ρ c main_v11 : S800000x128.Idx → EReal) = Cert.ReferenceIdeal.Read.val_main_v34 (F := Ideal) (m ((c : Thread nD τ).loc main_arg0)) (m ((c : Thread nD τ).loc main_arg2)) := by
  show StableHlo.after hostOps0 (W0 m ρ c) (Proc.devRef .tc main_v11) = _
  after_results_simp
  all_goals rfl

/-- Window 1: the feature rows gathered at the edges' second end nodes. -/
theorem in0_1 : (V1 m ρ c main_v18 : S800000x128.Idx → EReal) = Cert.ReferenceIdeal.Read.val_main_v41 (F := Ideal) (m ((c : Thread nD τ).loc main_arg0)) (m ((c : Thread nD τ).loc main_arg2)) := by
  show StableHlo.after hostOps0 (W0 m ρ c) (Proc.devRef .tc main_v18) = _
  after_results_simp
  all_goals rfl

/-- Window 2: the position differences, transposed: entry `(d, e)` is the difference of edge `e` on axis `d`. -/
theorem in0_2 (d : Fin 3) (e : Fin 800000) : (V1 m ρ c main_v34 : S3x800000.Idx → EReal) (ix2 d e) = Cert.ReferenceIdeal.Read.val_main_v18 (F := Ideal) (m ((c : Thread nD τ).loc main_arg1)) (m ((c : Thread nD τ).loc main_arg2)) (ix2 e d) := by
  have h : (V1 m ρ c main_v34 : S3x800000.Idx → EReal) = transpose S3x800000 [1, 0] (Cert.ReferenceIdeal.Read.val_main_v18 (F := Ideal) (m ((c : Thread nD τ).loc main_arg1)) (m ((c : Thread nD τ).loc main_arg2))) transposes_S800000x3_S3x800000_1_0 := by
    show StableHlo.after hostOps0 (W0 m ρ c) (Proc.devRef .tc main_v34) = _
    after_results_simp
    all_goals rfl
  rw [h]
  exact transpose_ix2_apply _ _ d e

/-- Window 3: the position perceptron's first weight matrix, as launched. -/
theorem in0_3 : (V1 m ρ c main_arg3 : S3x32.Idx → EReal) = (m ((c : Thread nD τ).loc main_arg3)) := by
  show StableHlo.after hostOps0 (W0 m ρ c) (Proc.devRef .tc main_arg3) = _
  after_results_simp
  all_goals rfl

/-- Window 4: the position perceptron's first bias, as one row. -/
theorem in0_4 (q : Fin 32) : (V1 m ρ c main_v38 : S1x32.Idx → EReal) (ix2 0 q) = ((m ((c : Thread nD τ).loc main_arg4)) : S32.Idx → EReal) (ix1 q) := by
  have h : (V1 m ρ c main_v38 : S1x32.Idx → EReal) = shapeCast S1x32 ((m ((c : Thread nD τ).loc main_arg4)) : S32.Idx → EReal) shapeCasts_S32_S1x32 := by
    show StableHlo.after hostOps0 (W0 m ρ c) (Proc.devRef .tc main_v38) = _
    after_results_simp
    all_goals rfl
  rw [h]
  exact shapeCast_a_1a_apply _ _ 0 q

/-- Window 5: the position perceptron's second weight matrix, as launched. -/
theorem in0_5 : (V1 m ρ c main_arg5 : S32x32.Idx → EReal) = (m ((c : Thread nD τ).loc main_arg5)) := by
  show StableHlo.after hostOps0 (W0 m ρ c) (Proc.devRef .tc main_arg5) = _
  after_results_simp
  all_goals rfl

/-- Window 6: the position perceptron's second bias, as one row. -/
theorem in0_6 (q : Fin 32) : (V1 m ρ c main_v39 : S1x32.Idx → EReal) (ix2 0 q) = ((m ((c : Thread nD τ).loc main_arg6)) : S32.Idx → EReal) (ix1 q) := by
  have h : (V1 m ρ c main_v39 : S1x32.Idx → EReal) = shapeCast S1x32 ((m ((c : Thread nD τ).loc main_arg6)) : S32.Idx → EReal) shapeCasts_S32_S1x32 := by
    show StableHlo.after hostOps0 (W0 m ρ c) (Proc.devRef .tc main_v39) = _
    after_results_simp
    all_goals rfl
  rw [h]
  exact shapeCast_a_1a_apply _ _ 0 q

/-- Window 7: rows 0 … 127 of the message perceptron's first weight matrix (the piece for the first end node's features). -/
theorem in0_7 (a : Fin 128) (k : Fin 128) : (V1 m ρ c main_v35 : S128x128.Idx → EReal) (ix2 a k) = ((m ((c : Thread nD τ).loc main_arg7)) : S288x128.Idx → EReal) (ix2 ⟨a.val, by omega⟩ k) := by
  have h : (V1 m ρ c main_v35 : S128x128.Idx → EReal) = extractStridedSlice S128x128 ![0, 0] ((m ((c : Thread nD τ).loc main_arg7)) : S288x128.Idx → EReal) slices_S288x128_S128x128_0_0 := by
    show StableHlo.after hostOps0 (W0 m ρ c) (Proc.devRef .tc main_v35) = _
    after_results_simp
    all_goals rfl
  rw [h]
  refine extractStridedSlice_apply _ _ _ _ _ fun ax => ?_
  match ax with
  | ⟨0, _⟩ => show a.val = 0 + a.val; omega
  | ⟨1, _⟩ => show k.val = 0 + k.val; omega

/-- Window 8: rows 128 … 255 of that matrix (the piece for the second end node's features). -/
theorem in0_8 (a : Fin 128) (k : Fin 128) : (V1 m ρ c main_v36 : S128x128.Idx → EReal) (ix2 a k) = ((m ((c : Thread nD τ).loc main_arg7)) : S288x128.Idx → EReal) (ix2 ⟨128 + a.val, by omega⟩ k) := by
  have h : (V1 m ρ c main_v36 : S128x128.Idx → EReal) = extractStridedSlice S128x128 ![128, 0] ((m ((c : Thread nD τ).loc main_arg7)) : S288x128.Idx → EReal) slices_S288x128_S128x128_128_0 := by
    show StableHlo.after hostOps0 (W0 m ρ c) (Proc.devRef .tc main_v36) = _
    after_results_simp
    all_goals rfl
  rw [h]
  refine extractStridedSlice_apply _ _ _ _ _ fun ax => ?_
  match ax with
  | ⟨0, _⟩ => show 128 + a.val = 128 + a.val; omega
  | ⟨1, _⟩ => show k.val = 0 + k.val; omega

/-- Window 9: rows 256 … 287 of that matrix (the piece for the position features). -/
theorem in0_9 (a : Fin 32) (k : Fin 128) : (V1 m ρ c main_v37 : S32x128.Idx → EReal) (ix2 a k) = ((m ((c : Thread nD τ).loc main_arg7)) : S288x128.Idx → EReal) (ix2 ⟨256 + a.val, by omega⟩ k) := by
  have h : (V1 m ρ c main_v37 : S32x128.Idx → EReal) = extractStridedSlice S32x128 ![256, 0] ((m ((c : Thread nD τ).loc main_arg7)) : S288x128.Idx → EReal) slices_S288x128_S32x128_256_0 := by
    show StableHlo.after hostOps0 (W0 m ρ c) (Proc.devRef .tc main_v37) = _
    after_results_simp
    all_goals rfl
  rw [h]
  refine extractStridedSlice_apply _ _ _ _ _ fun ax => ?_
  match ax with
  | ⟨0, _⟩ => show 256 + a.val = 256 + a.val; omega
  | ⟨1, _⟩ => show k.val = 0 + k.val; omega

/-- Window 10: the message perceptron's first bias, as one row. -/
theorem in0_10 (q : Fin 128) : (V1 m ρ c main_v40 : S1x128.Idx → EReal) (ix2 0 q) = ((m ((c : Thread nD τ).loc main_arg8)) : S128.Idx → EReal) (ix1 q) := by
  have h : (V1 m ρ c main_v40 : S1x128.Idx → EReal) = shapeCast S1x128 ((m ((c : Thread nD τ).loc main_arg8)) : S128.Idx → EReal) shapeCasts_S128_S1x128 := by
    show StableHlo.after hostOps0 (W0 m ρ c) (Proc.devRef .tc main_v40) = _
    after_results_simp
    all_goals rfl
  rw [h]
  exact shapeCast_a_1a_apply _ _ 0 q

/-- Window 11: the message perceptron's second weight matrix, as launched. -/
theorem in0_11 : (V1 m ρ c main_arg9 : S128x128.Idx → EReal) = (m ((c : Thread nD τ).loc main_arg9)) := by
  show StableHlo.after hostOps0 (W0 m ρ c) (Proc.devRef .tc main_arg9) = _
  after_results_simp
  all_goals rfl

/-- Window 12: the message perceptron's second bias, as one row. -/
theorem in0_12 (q : Fin 128) : (V1 m ρ c main_v41 : S1x128.Idx → EReal) (ix2 0 q) = ((m ((c : Thread nD τ).loc main_arg10)) : S128.Idx → EReal) (ix1 q) := by
  have h : (V1 m ρ c main_v41 : S1x128.Idx → EReal) = shapeCast S1x128 ((m ((c : Thread nD τ).loc main_arg10)) : S128.Idx → EReal) shapeCasts_S128_S1x128 := by
    show StableHlo.after hostOps0 (W0 m ρ c) (Proc.devRef .tc main_v41) = _
    after_results_simp
    all_goals rfl
  rw [h]
  exact shapeCast_a_1a_apply _ _ 0 q

end Cert.KernelIdeal.Entry

end
-- ==== Proof.Messages.lean ====
/-
  The kernel program's first half is the reference's first half.

  When the per-edge kernel is entered its windows hold: the two gathered feature arrays and the gathered position
  differences (the SAME host terms the reference computes, the latter transposed), and the weights and biases cut out
  of, or reshaped from, the arguments.  So the message array the kernel leaves — `EdgeArr.G0` of those arrays — is, row by
  row, the reference's message array: both are `Cert.Layer.msgRow` of the same rows.  The host then scatter-adds the
  messages into their destination nodes with the same operation, on the same indices, as the reference: the second
  kernel's aggregate window holds the reference's aggregate.
-/
import proofs.«109912_j49495203119136_2_alg».proof.Proof.EdgeArr
import proofs.«109912_j49495203119136_2_alg».proof.Proof.RefEdge
import proofs.«109912_j49495203119136_2_alg».proof.Proof.Entry
import Idealize.ShloMosaic.Lib.StableHlo.Run

set_option maxRecDepth 16384

noncomputable section

namespace Cert.KernelIdeal.Messages

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- `EdgeArr.G0` at edge `e`, column `j`: the message of the edge's rows. -/
theorem G0_at (A0 A1 : S800000x128.Idx → EReal) (A2 : S3x800000.Idx → EReal) (A3 : S3x32.Idx → EReal) (A4 : S1x32.Idx → EReal)
    (A5 : S32x32.Idx → EReal) (A6 : S1x32.Idx → EReal) (A7 A8 : S128x128.Idx → EReal) (A9 : S32x128.Idx → EReal)
    (A10 : S1x128.Idx → EReal) (A11 : S128x128.Idx → EReal) (A12 : S1x128.Idx → EReal) (e : Fin 800000) (j : Fin 128) :
    EdgeArr.G0 A0 A1 A2 A3 A4 A5 A6 A7 A8 A9 A10 A11 A12 (ix2 e j)
      = Cert.Layer.msgRow (fun a => A0 (ix2 e a)) (fun a => A1 (ix2 e a))
          (Cert.Layer.posFeat (fun d => A2 (ix2 d e)) (fun d q => A3 (ix2 d q)) (fun q => A4 (ix2 0 q)) (fun a q => A5 (ix2 a q)) (fun q => A6 (ix2 0 q)))
          (fun a k => A7 (ix2 a k)) (fun a k => A8 (ix2 a k)) (fun q k => A9 (ix2 q k)) (fun k => A10 (ix2 0 k)) (fun k j' => A11 (ix2 k j')) (fun k => A12 (ix2 0 k)) j := rfl

/-- The message array after the per-edge kernel is the reference's message array of the same arguments. -/
theorem messages : ((dat0 (V1 m ρ) c).arrAt 13 cfg0.N : S800000x128.Idx → EReal)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [EdgeArr.final0 (V1 m ρ) c]
  funext i
  obtain ⟨e, j, rfl⟩ : ∃ (e : Fin 800000) (j : Fin 128), i = ix2 e j := ⟨i 0, i 1, eq_ix2 i⟩
  rw [Cert.ReferenceIdeal.RefEdge.ref_message]
  rw [G0_at]
  rw [Entry.in0_0 m ρ c, Entry.in0_1 m ρ c, Entry.in0_3 m ρ c, Entry.in0_5 m ρ c, Entry.in0_11 m ρ c]
  have e2 : (fun d : Fin 3 => (V1 m ρ c main_v34 : S3x800000.Idx → EReal) (ix2 d e)) = _ := funext fun d => Entry.in0_2 m ρ c d e
  have e4 : (fun q : Fin 32 => (V1 m ρ c main_v38 : S1x32.Idx → EReal) (ix2 0 q)) = _ := funext fun q => Entry.in0_4 m ρ c q
  have e6 : (fun q : Fin 32 => (V1 m ρ c main_v39 : S1x32.Idx → EReal) (ix2 0 q)) = _ := funext fun q => Entry.in0_6 m ρ c q
  have e7 : (fun (a k : Fin 128) => (V1 m ρ c main_v35 : S128x128.Idx → EReal) (ix2 a k)) = _ := funext fun a => funext fun k => Entry.in0_7 m ρ c a k
  have e8 : (fun (a k : Fin 128) => (V1 m ρ c main_v36 : S128x128.Idx → EReal) (ix2 a k)) = _ := funext fun a => funext fun k => Entry.in0_8 m ρ c a k
  have e9 : (fun (q : Fin 32) (k : Fin 128) => (V1 m ρ c main_v37 : S32x128.Idx → EReal) (ix2 q k)) = _ := funext fun q => funext fun k => Entry.in0_9 m ρ c q k
  have e10 : (fun k : Fin 128 => (V1 m ρ c main_v40 : S1x128.Idx → EReal) (ix2 0 k)) = _ := funext fun k => Entry.in0_10 m ρ c k
  have e12 : (fun k : Fin 128 => (V1 m ρ c main_v41 : S1x128.Idx → EReal) (ix2 0 k)) = _ := funext fun k => Entry.in0_12 m ρ c k
  rw [e2, e4, e6, e7, e8, e9, e10, e12]

/-- The destination indices the scatter-add uses are the reference's. -/
theorem dest : (W1 m ρ c (Proc.devRef .tc main_v3) : S800000.Idx → BitVec 32) = Cert.ReferenceIdeal.Read.val_main_v3 (F := Ideal) (m ((c : Thread nD τ).loc main_arg2)) := by
  show StableHlo.after hostOps0 (W0 m ρ c) (Proc.devRef .tc main_v3) = _
  after_results_simp
  rfl

/-- The second kernel's aggregate window holds the reference's aggregate: the same scatter-add of the same messages. -/
theorem aggregated : (V3 m ρ c main_v46 : S50000x128.Idx → EReal)
    = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps1 (W2 m ρ c) (Proc.devRef .tc main_v46) = _
  after_results_simp
  have h42 : W2 m ρ c (Proc.devRef .tc main_v42) = (dat0 (V1 m ρ) c).arrAt 13 cfg0.N := W2_arr m ρ c 13
  rw [h42, messages m ρ c, W2_of_ne m ρ c main_v3 (by decide), dest m ρ c]
  rfl

end Cert.KernelIdeal.Messages

end
-- ==== Proof.NodeBody.lean ====
/-
  The update kernel's stored block, read at one element.

  The kernel body loads its seven whole blocks — a row block `x` of node features, the matching row block `g` of
  summed messages, the two halves `wx`, `wg` of the first weight matrix, the first bias row `b1`, the second weight
  matrix `w2` and the second bias row `b2` — and stores
      relu (x · wx + g · wg + b1) · w2 + b2
  over the whole output block.  At the extended reals every format change is the identity and each matrix product
  into a zero accumulator is the plain sum over the contracted axis, so element (p, j) of the stored block is
  `Cert.Layer.updRow` of row p of `x` and of `g` at column j.
-/
import proofs.«109912_j49495203119136_2_alg».proof.Proof.Gen.KernelIdeal.Frame
import proofs.«109912_j49495203119136_2_alg».proof.Proof.Spec
import Idealize.ShloMosaic.Lib.Pipeline.Value
import Idealize.ShloMosaic.Lib.ValueIdx
import Idealize.ShloMosaic.PureOps.Ideal.Laws

noncomputable section

namespace Cert.KernelIdeal.NodeBody

open Cert.KernelIdeal Cert.KernelIdeal.Gen Idealize.ShloMosaic Idealize.ShloMosaic.ValueIdx

/-- The literal offset pair `![0, 0]` is the zero offset. -/
theorem hz2 : (![0, 0] : Fin 2 → Nat) = fun _ => 0 := funext fun a => by fin_cases a <;> rfl

/-- Row coordinate of the left operand of the [2000,128] × [128,128] product: the output's row. -/
theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Column coordinate of the left operand: the contraction index. -/
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- Row coordinate of the right operand: the contraction index. -/
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Column coordinate of the right operand: the output's column. -/
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The left operand of the product at output (p, q) and contraction index k is (p, k). -/
theorem lhs_eq (p : Fin 2000) (q k : Fin 128) :
    dot_S2000x128_S128x128_S2000x128_1_0_0_1_n_n.lhsIdx (ix2 p q) ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  exact funext fun a => Fin.ext (by
    match a with
    | ⟨0, _⟩ => exact lhs_0 _ _
    | ⟨1, _⟩ => exact (lhs_1 _ _).trans hk)

/-- The right operand there is (k, q). -/
theorem rhs_eq (p : Fin 2000) (q k : Fin 128) :
    dot_S2000x128_S128x128_S2000x128_1_0_0_1_n_n.rhsIdx (ix2 p q) ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  exact funext fun a => Fin.ext (by
    match a with
    | ⟨0, _⟩ => exact (rhs_0 _ _).trans hk
    | ⟨1, _⟩ => exact rhs_1 _ _)

/-- A [2000,128] × [128,128] product into the zero accumulator, at (p, q): the sum over the contracted axis. -/
theorem mm_apply (A : FVec Ideal S2000x128 .bf16) (B : FVec Ideal S128x128 .bf16) (p : Fin 2000) (q : Fin 128) :
    matmul dot_S2000x128_S128x128_S2000x128_1_0_0_1_n_n none A B (constant S2000x128 .f32 0x00000000#32) (ix2 p q)
      = ∑ a : Fin 128, A (ix2 p a) * B (ix2 a q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  rw [lhs_eq, rhs_eq]

/-- A [1,128] row broadcast down the 2000 rows reads, at (p, k), the row's entry k. -/
theorem bias_apply (b : FVec Ideal S1x128 .f32) (p : Fin 2000) (k : Fin 128) :
    broadcastTo S2000x128 b broadcasts_S1x128_S2000x128 (ix2 p k) = b (ix2 0 k) :=
  broadcastTo_apply b broadcasts_S1x128_S2000x128 (ix2 p k) (ix2 0 k) (fun a => match a with
    | ⟨0, _⟩ => by show (0 : ℕ) = if (1 : Nat) = 1 then 0 else p.val; rw [if_pos rfl]
    | ⟨1, _⟩ => by show k.val = if (128 : Nat) = 1 then 0 else k.val; rw [if_neg (by decide)])

theorem node_payload (x0 : Vec Ideal S2000x128 .bf16) (x1 : Vec Ideal S2000x128 .f32) (x2 x3 : Vec Ideal S128x128 .f32)
    (x4 : Vec Ideal S1x128 .f32) (x5 : Vec Ideal S128x128 .f32) (x6 : Vec Ideal S1x128 .f32) (p : Fin 2000) (j : Fin 128) :
    out1_7 (F := Ideal) x0 x1 x2 x3 x4 x5 x6 (ix2 p j)
      = Cert.Layer.updRow (fun a => x0 (ix2 p a)) (fun a => x1 (ix2 p a)) (fun a k => x2 (ix2 a k)) (fun a k => x3 (ix2 a k))
          (fun k => x4 (ix2 0 k)) (fun k j' => x5 (ix2 k j')) (fun k => x6 (ix2 0 k)) j := by
  unfold out1_7
  rw [View.canon_unit_zero hz2]
  simp only [View.ld_unit_zero (S := S2000x128) hz2, View.ld_unit_zero (S := S128x128) hz2, View.ld_unit_zero (S := S1x128) hz2]
  unfold k1_pay1
  simp only [shapeCast_self]
  have hz : (FloatOps.ofBits .f32 0x00000000#32 : Ideal .f32) = 0 := Ideal.ofBits_zero_f32
  rw [addf_apply, mm_apply, bias_apply]
  simp only [Cert.Layer.updRow, Cert.Layer.relu]
  refine congrArg₂ (· + ·) (Finset.sum_congr rfl fun k _ => ?_) rfl
  rw [truncf_apply, truncf_apply, maximumf_apply, addf_apply, addf_apply, mm_apply, mm_apply, bias_apply, broadcast_apply, hz]
  rfl

end Cert.KernelIdeal.NodeBody

end
-- ==== Proof.NodeArr.lean ====
/-
  The node array after the per-node update kernel.

  The kernel runs at 25 grid points; point `t` stages rows `2000 t … 2000 t + 1999` of the node-feature array and of
  the summed-message array, and the weight and bias arrays whole, and writes back rows `2000 t …` of the updated node
  array.  Read at a row, what it writes back is that node's new row (`Cert.Layer.updRow` of the node's two rows), and
  the 25 blocks fill the array: the array ends as ONE function `G1` of the arrays the kernel reads, whatever those hold
  when the region is entered.
-/
import proofs.«109912_j49495203119136_2_alg».proof.Proof.Gen.KernelIdeal.Frame
import proofs.«109912_j49495203119136_2_alg».proof.Proof.Spec
import proofs.«109912_j49495203119136_2_alg».proof.Proof.NodeBody
import Idealize.ShloMosaic.Lib.Pipeline.Value
import Idealize.ShloMosaic.Lib.ValueIdx

set_option maxRecDepth 16384

noncomputable section

namespace Cert.KernelIdeal.NodeArr

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.KernelIdeal.NodeBody (node_payload)

/-- The printed index maps over the 25 grid points: the node-indexed windows sit at block `t` on the node axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0 :=
  (by decide +kernel : ∀ t : Fin grid1.N, _)

/-- The weight and bias windows sit at block 0 at every point. -/
theorem idx_const : ∀ t : Fin cfg1.N, ∀ ax : Fin 2,
    win1_2.index t ax = 0 ∧ win1_3.index t ax = 0 ∧ win1_4.index t ax = 0 ∧ win1_5.index t ax = 0 ∧ win1_6.index t ax = 0 :=
  (by decide +kernel : ∀ t : Fin grid1.N, _)

theorem hN1 : cfg1.N = 25 := N_1

/-- Node `t * 2000 + p`, the `p`-th node of block `t`. -/
def nodeOf (t : Fin cfg1.N) (p : Fin 2000) : Fin 50000 := ⟨t.val * 2000 + p.val, by have := t.isLt; have := hN1; omega⟩

variable (V : (c : Dev nD) → (b : Ref sig .tc) → Buf (Elt Ideal) ((c : Thread nD τ).loc b)) (c : Dev nD)

theorem blk1_0 (t : Fin cfg1.N) (p : Fin 2000) (a : Fin 128) : iblk1 V c 0 t (ix2 p a) = (V c main_v4 : S50000x128.Idx → EReal) (ix2 (nodeOf t p) a) := by
  show (V c main_v4 : S50000x128.Idx → EReal) (((cfg1.win 0).blk t).view.emb (ix2 p a)) = _
  refine congrArg _ (funext fun ax => Fin.ext ?_)
  obtain ⟨e0, e1, -⟩ := idx_facts t
  match ax with
  | ⟨0, _⟩ => show win1_0.index t (0 : Fin 2) * 2000 + 1 * p.val = t.val * 2000 + p.val; rw [e0]; omega
  | ⟨1, _⟩ => show win1_0.index t (1 : Fin 2) * 128 + 1 * a.val = a.val; rw [e1]; omega

theorem blk1_1 (t : Fin cfg1.N) (p : Fin 2000) (a : Fin 128) : iblk1 V c 1 t (ix2 p a) = (V c main_v46 : S50000x128.Idx → EReal) (ix2 (nodeOf t p) a) := by
  show (V c main_v46 : S50000x128.Idx → EReal) (((cfg1.win 1).blk t).view.emb (ix2 p a)) = _
  refine congrArg _ (funext fun ax => Fin.ext ?_)
  obtain ⟨-, -, e0, e1, -⟩ := idx_facts t
  match ax with
  | ⟨0, _⟩ => show win1_1.index t (0 : Fin 2) * 2000 + 1 * p.val = t.val * 2000 + p.val; rw [e0]; omega
  | ⟨1, _⟩ => show win1_1.index t (1 : Fin 2) * 128 + 1 * a.val = a.val; rw [e1]; omega

theorem blk1_2 (t : Fin cfg1.N) (y : S128x128.Idx) : iblk1 V c 2 t y = (V c main_v47 : S128x128.Idx → EReal) y := by
  show (V c main_v47 : S128x128.Idx → EReal) (((cfg1.win 2).blk t).view.emb y) = _
  refine congrArg _ (funext fun ax => Fin.ext ?_)
  match ax with
  | ⟨0, _⟩ => show win1_2.index t (0 : Fin 2) * 128 + 1 * (y 0).val = (y 0).val; rw [(idx_const t 0).1]; omega
  | ⟨1, _⟩ => show win1_2.index t (1 : Fin 2) * 128 + 1 * (y 1).val = (y 1).val; rw [(idx_const t 1).1]; omega

theorem blk1_3 (t : Fin cfg1.N) (y : S128x128.Idx) : iblk1 V c 3 t y = (V c main_v48 : S128x128.Idx → EReal) y := by
  show (V c main_v48 : S128x128.Idx → EReal) (((cfg1.win 3).blk t).view.emb y) = _
  refine congrArg _ (funext fun ax => Fin.ext ?_)
  match ax with
  | ⟨0, _⟩ => show win1_3.index t (0 : Fin 2) * 128 + 1 * (y 0).val = (y 0).val; rw [(idx_const t 0).2.1]; omega
  | ⟨1, _⟩ => show win1_3.index t (1 : Fin 2) * 128 + 1 * (y 1).val = (y 1).val; rw [(idx_const t 1).2.1]; omega

theorem blk1_4 (t : Fin cfg1.N) (y : S1x128.Idx) : iblk1 V c 4 t y = (V c main_v49 : S1x128.Idx → EReal) y := by
  show (V c main_v49 : S1x128.Idx → EReal) (((cfg1.win 4).blk t).view.emb y) = _
  refine congrArg _ (funext fun ax => Fin.ext ?_)
  match ax with
  | ⟨0, _⟩ => show win1_4.index t (0 : Fin 2) * 1 + 1 * (y 0).val = (y 0).val; rw [(idx_const t 0).2.2.1]; omega
  | ⟨1, _⟩ => show win1_4.index t (1 : Fin 2) * 128 + 1 * (y 1).val = (y 1).val; rw [(idx_const t 1).2.2.1]; omega

theorem blk1_5 (t : Fin cfg1.N) (y : S128x128.Idx) : iblk1 V c 5 t y = (V c main_arg13 : S128x128.Idx → EReal) y := by
  show (V c main_arg13 : S128x128.Idx → EReal) (((cfg1.win 5).blk t).view.emb y) = _
  refine congrArg _ (funext fun ax => Fin.ext ?_)
  match ax with
  | ⟨0, _⟩ => show win1_5.index t (0 : Fin 2) * 128 + 1 * (y 0).val = (y 0).val; rw [(idx_const t 0).2.2.2.1]; omega
  | ⟨1, _⟩ => show win1_5.index t (1 : Fin 2) * 128 + 1 * (y 1).val = (y 1).val; rw [(idx_const t 1).2.2.2.1]; omega

theorem blk1_6 (t : Fin cfg1.N) (y : S1x128.Idx) : iblk1 V c 6 t y = (V c main_v50 : S1x128.Idx → EReal) y := by
  show (V c main_v50 : S1x128.Idx → EReal) (((cfg1.win 6).blk t).view.emb y) = _
  refine congrArg _ (funext fun ax => Fin.ext ?_)
  match ax with
  | ⟨0, _⟩ => show win1_6.index t (0 : Fin 2) * 1 + 1 * (y 0).val = (y 0).val; rw [(idx_const t 0).2.2.2.2]; omega
  | ⟨1, _⟩ => show win1_6.index t (1 : Fin 2) * 128 + 1 * (y 1).val = (y 1).val; rw [(idx_const t 1).2.2.2.2]; omega

/-- Every node's new row, as one function of the seven arrays the update kernel reads: row `n` of the node features and
    of the summed messages, and the weights. -/
def G1 (B0 B1 : S50000x128.Idx → EReal) (B2 B3 : S128x128.Idx → EReal) (B4 : S1x128.Idx → EReal) (B5 : S128x128.Idx → EReal)
    (B6 : S1x128.Idx → EReal) : S50000x128.Idx → EReal :=
  fun i => Cert.Layer.updRow (fun a => B0 (ix2 (i 0 : Fin 50000) a)) (fun a => B1 (ix2 (i 0 : Fin 50000) a))
    (fun a k => B2 (ix2 a k)) (fun a k => B3 (ix2 a k)) (fun k => B4 (ix2 0 k)) (fun k j' => B5 (ix2 k j')) (fun k => B6 (ix2 0 k)) (i 1 : Fin 128)

/-- What point `t` writes back is block `t` of `G1` of the arrays as the region finds them. -/
theorem flushed1 (t : Fin cfg1.N) :
    (dat1 V c).flushed 7 t = ((cfg1.win 7).blk t).view.read (Elt Ideal) (G1 (V c main_v4) (V c main_v46) (V c main_v47) (V c main_v48) (V c main_v49) (V c main_arg13) (V c main_v50)) := by
  show (cfg1.win 7).cut (grid1.coords t) ((dat1 V c).after 7 t) = _
  rw [after1_7]
  funext y
  obtain ⟨p, j, rfl⟩ : ∃ (p : Fin 2000) (j : Fin 128), y = ix2 p j := ⟨y 0, y 1, eq_ix2 y⟩
  have hemb : ((cfg1.win 7).blk t).view.emb (ix2 p j) = (ix2 (nodeOf t p) j : S50000x128.Idx) := by
    funext ax; apply Fin.ext
    obtain ⟨-, -, -, -, e0, e1⟩ := idx_facts t
    match ax with
    | ⟨0, _⟩ => show win1_7.index t (0 : Fin 2) * 2000 + 1 * p.val = t.val * 2000 + p.val; rw [e0]; omega
    | ⟨1, _⟩ => show win1_7.index t (1 : Fin 2) * 128 + 1 * j.val = j.val; rw [e1]; omega
  show out1_7 (iblk1 V c 0 t) (iblk1 V c 1 t) (iblk1 V c 2 t) (iblk1 V c 3 t) (iblk1 V c 4 t) (iblk1 V c 5 t) (iblk1 V c 6 t) (ix2 p j)
    = G1 (V c main_v4) (V c main_v46) (V c main_v47) (V c main_v48) (V c main_v49) (V c main_arg13) (V c main_v50) (((cfg1.win 7).blk t).view.emb (ix2 p j))
  rw [hemb]
  refine (node_payload (iblk1 V c 0 t) (iblk1 V c 1 t) (iblk1 V c 2 t) (iblk1 V c 3 t) (iblk1 V c 4 t) (iblk1 V c 5 t) (iblk1 V c 6 t) p j).trans ?_
  simp only [blk1_0, blk1_1, blk1_2, blk1_3, blk1_4, blk1_5, blk1_6]
  rfl

/-- An index of the node array is in point `t`'s block iff each coordinate is in the block's range on its axis. -/
theorem mem_blk1 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v51).slice (win1_7.rect t)).set ↔ _
  rw [View.set_slice_whole, Rect.mem_set_unit]
  exact Iff.rfl

/-- The 25 blocks of 2000 nodes fill the node array (node `n` is in block `n / 2000`), so it ends holding `G1`. -/
theorem final1 : (dat1 V c).arrAt 7 cfg1.N = G1 (V c main_v4) (V c main_v46) (V c main_v47) (V c main_v48) (V c main_v49) (V c main_arg13) (V c main_v50) :=
  (dat1 V c).arrAt_eq_of_cover 7 _ (fun t _ => flushed1 V c t) fun i => by
    have hi0 : (i 0).val < 50000 := (i 0).isLt
    have hi1 : (i 1).val < 128 := (i 1).isLt
    have hN := hN1
    refine ⟨⟨(i 0).val / 2000, by omega⟩, flush1_7 _, ?_⟩
    rw [mem_blk1]
    intro a
    obtain ⟨-, -, -, -, e0, e1⟩ := idx_facts ⟨(i 0).val / 2000, by omega⟩
    match a with
    | ⟨0, _⟩ =>
      show win1_7.index ⟨(i 0).val / 2000, _⟩ (0 : Fin 2) * 2000 ≤ (i 0).val ∧ (i 0).val < win1_7.index ⟨(i 0).val / 2000, _⟩ (0 : Fin 2) * 2000 + 2000
      rw [e0]; show (i 0).val / 2000 * 2000 ≤ (i 0).val ∧ (i 0).val < (i 0).val / 2000 * 2000 + 2000; omega
    | ⟨1, _⟩ =>
      show win1_7.index ⟨(i 0).val / 2000, _⟩ (1 : Fin 2) * 128 ≤ (i 1).val ∧ (i 1).val < win1_7.index ⟨(i 0).val / 2000, _⟩ (1 : Fin 2) * 128 + 128
      rw [e1]; omega

end Cert.KernelIdeal.NodeArr
end
-- ==== Proof.RefNode.lean ====
/-
  The reference's node update, read at one element.

  The reference joins each node's feature row `x` (128 entries) with its row `g` of summed messages (128 entries)
  into one row of 256, multiplies by the 256 × 128 first weight matrix, adds the first bias, rectifies, multiplies by
  the 128 × 128 second weight matrix and adds the second bias.  A sum over the 256 joined columns is the sum over the
  first 128 (where the joined row is `x`) plus the sum over the last 128 (where it is `g`), so element (n, j) of the
  result is `Cert.Layer.updRow` of row n of `x` and of `g`, with the first weight matrix cut into its upper and
  lower 128 rows.  The summed messages `g` stay an unopened term throughout.
-/
import proofs.«109912_j49495203119136_2_alg».proof.Proof.Gen.ReferenceIdeal.Read
import proofs.«109912_j49495203119136_2_alg».proof.Proof.Spec

noncomputable section

namespace Cert.ReferenceIdeal.RefNode

open Cert.ReferenceIdeal Cert.ReferenceIdeal.Gen Cert.ReferenceIdeal.Read Idealize.ShloMosaic Idealize.ShloMosaic.ValueIdx

/-- The joined row at one of its first 128 columns is the feature row there. -/
theorem v55_left (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (a : Fin 128) :
    val_main_v55 (F := Ideal) x0 x1 x2 x3 x4 x5 x6 x7 x8 x9 x10 (ix2 n (⟨a.val, by omega⟩ : Fin 256)) = x0 (ix2 n a) := by
  unfold val_main_v55
  generalize val_main_v54 (F := Ideal) x0 x1 x2 x3 x4 x5 x6 x7 x8 x9 x10 = g
  exact concatenate_pair_apply_left (1 : Fin S50000x256.rank) x0 g concatenates_S50000x128_S50000x128_S50000x256_d1
    (ix2 n (⟨a.val, by omega⟩ : Fin 256)) rfl (ix2 n a) (fun b => match b with
      | ⟨0, _⟩ => rfl
      | ⟨1, _⟩ => rfl)

/-- The joined row at one of its last 128 columns is the summed-message row, 128 columns back. -/
theorem v55_right (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (a : Fin 128) :
    val_main_v55 (F := Ideal) x0 x1 x2 x3 x4 x5 x6 x7 x8 x9 x10 (ix2 n (⟨128 + a.val, by omega⟩ : Fin 256))
      = val_main_v54 (F := Ideal) x0 x1 x2 x3 x4 x5 x6 x7 x8 x9 x10 (ix2 n a) := by
  unfold val_main_v55
  generalize val_main_v54 (F := Ideal) x0 x1 x2 x3 x4 x5 x6 x7 x8 x9 x10 = g
  exact concatenate_pair_apply_right (1 : Fin S50000x256.rank) x0 g concatenates_S50000x128_S50000x128_S50000x256_d1
    (ix2 n (⟨128 + a.val, by omega⟩ : Fin 256)) rfl rfl (ix2 n a) (fun b => match b with
      | ⟨0, _⟩ => fun _ => rfl
      | ⟨1, _⟩ => fun h => absurd (Fin.ext rfl) h)
    (by show a.val + 128 = 128 + a.val; omega)

/-- The first product at (n, k): the sum over the 256 joined columns, cut into its two halves. -/
theorem v56_at (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (n : Fin 50000) (k : Fin 128) :
    val_main_v56 (F := Ideal) x0 x1 x2 x3 x4 x5 x6 x7 x8 x9 x10 x11 (ix2 n k)
      = (∑ a : Fin 128, x0 (ix2 n a) * x11 (ix2 (⟨a.val, by omega⟩ : Fin 256) k))
        + ∑ a : Fin 128, val_main_v54 (F := Ideal) x0 x1 x2 x3 x4 x5 x6 x7 x8 x9 x10 (ix2 n a) * x11 (ix2 (⟨128 + a.val, by omega⟩ : Fin 256) k) := by
  rw [val_main_v56_apply, Cert.Layer.sum_split2]
  refine congrArg₂ (· + ·) (Finset.sum_congr rfl fun a _ => ?_) (Finset.sum_congr rfl fun a _ => ?_)
  · have el : lidx_main_v56 (ix2 n k) (⟨a.val, by omega⟩ : Fin 256) = ix2 n (⟨a.val, by omega⟩ : Fin 256) :=
      funext fun b => by match b with | ⟨0, _⟩ => rfl | ⟨1, _⟩ => rfl
    have er : ridx_main_v56 (ix2 n k) (⟨a.val, by omega⟩ : Fin 256) = ix2 (⟨a.val, by omega⟩ : Fin 256) k :=
      funext fun b => by match b with | ⟨0, _⟩ => rfl | ⟨1, _⟩ => rfl
    rw [el, er, v55_left]
  · have el : lidx_main_v56 (ix2 n k) (⟨128 + a.val, by omega⟩ : Fin 256) = ix2 n (⟨128 + a.val, by omega⟩ : Fin 256) :=
      funext fun b => by match b with | ⟨0, _⟩ => rfl | ⟨1, _⟩ => rfl
    have er : ridx_main_v56 (ix2 n k) (⟨128 + a.val, by omega⟩ : Fin 256) = ix2 (⟨128 + a.val, by omega⟩ : Fin 256) k :=
      funext fun b => by match b with | ⟨0, _⟩ => rfl | ⟨1, _⟩ => rfl
    rw [el, er, v55_right]

/-- The rectified hidden row at (n, k). -/
theorem v60_at (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (n : Fin 50000) (k : Fin 128) :
    val_main_v60 (F := Ideal) x0 x1 x2 x3 x4 x5 x6 x7 x8 x9 x10 x11 x12 (ix2 n k)
      = Cert.Layer.relu (((∑ a : Fin 128, x0 (ix2 n a) * x11 (ix2 (⟨a.val, by omega⟩ : Fin 256) k))
          + ∑ a : Fin 128, val_main_v54 (F := Ideal) x0 x1 x2 x3 x4 x5 x6 x7 x8 x9 x10 (ix2 n a) * x11 (ix2 (⟨128 + a.val, by omega⟩ : Fin 256) k))
          + x12 (ix1 k)) := by
  have hz : (FloatOps.ofBits .f32 0x00000000#32 : Ideal .f32) = 0 := Ideal.ofBits_zero_f32
  have e58 : idx_main_v57 (idx_main_v58 (ix2 n k)) = ix1 k := funext fun b => by match b with | ⟨0, _⟩ => rfl
  rw [val_main_v60_apply, val_main_v59_apply, val_main_call2_v0_apply, val_main_call2_cst_apply, val_main_v58_apply,
    val_main_v57_apply, e58, v56_at, hz]
  rfl

theorem ref_update (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S288x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (n : Fin 50000) (j : Fin 128) :
    val_main_v64 (F := Ideal) x0 x1 x2 x3 x4 x5 x6 x7 x8 x9 x10 x11 x12 x13 x14 (ix2 n j)
      = Cert.Layer.updRow (fun a => x0 (ix2 n a)) (fun a => val_main_v54 (F := Ideal) x0 x1 x2 x3 x4 x5 x6 x7 x8 x9 x10 (ix2 n a))
          (fun a k => x11 (ix2 ⟨a.val, by omega⟩ k)) (fun a k => x11 (ix2 ⟨128 + a.val, by omega⟩ k))
          (fun k => x12 (ix1 k)) (fun k j' => x13 (ix2 k j')) (fun k => x14 (ix1 k)) j := by
  have e63 : idx_main_v62 (idx_main_v63 (ix2 n j)) = ix1 j := funext fun b => by match b with | ⟨0, _⟩ => rfl
  rw [val_main_v64_apply, val_main_v63_apply, val_main_v62_apply, e63, val_main_v61_apply]
  simp only [Cert.Layer.updRow, Ideal.addf_def]
  refine congrArg₂ (· + ·) (Finset.sum_congr rfl fun k _ => ?_) rfl
  have el : lidx_main_v61 (ix2 n j) k = ix2 n k := funext fun b => by match b with | ⟨0, _⟩ => rfl | ⟨1, _⟩ => rfl
  have er : ridx_main_v61 (ix2 n j) k = ix2 k j := funext fun b => by match b with | ⟨0, _⟩ => rfl | ⟨1, _⟩ => rfl
  rw [el, er, v60_at]

end Cert.ReferenceIdeal.RefNode

end
-- ==== Proof.Entry1.lean ====
/-
  What the second kernel's input windows hold when it is entered.

  Between the two kernels the program only cuts the update perceptron's first weight matrix (256 rows) into its two
  128-row blocks, gives the two bias vectors a leading unit axis, and forms the summed messages; everything else the
  second kernel reads is an argument of the program, or a copy of one, untouched since the launch.  Each window is read
  here entry by entry from the arguments: a row block of the 256-row matrix at `(a, k)` is the matrix at `(a, k)`,
  resp. `(128 + a, k)`; a bias row at `(0, k)` is the bias at `k`; the node features, after the change of float format
  (the identity on the extended reals), are the node features.
-/
import proofs.«109912_j49495203119136_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
set_option maxRecDepth 16384
noncomputable section
namespace Cert.KernelIdeal.Entry1
open Cert.KernelIdeal Cert.KernelIdeal.Gen Idealize.ShloMosaic Idealize.ShloMosaic.TcCoe Idealize.SL.Sem Idealize.ShloMosaic.StableHlo Idealize.ShloMosaic.ValueIdx
variable (m : (ℓ : Loc nD τ sig) → Buf (Elt Ideal) ℓ) (ρ : Dev nD → PrngReg) (c : Dev nD)

/-- Argument 11 still holds at the first kernel's exit what it held at the launch: neither the operations before the
    first kernel nor that kernel write it. -/
theorem exit0_arg11 : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results_simp

/-- Argument 12 still holds at the first kernel's exit what it held at the launch: neither the operations before the
    first kernel nor that kernel write it. -/
theorem exit0_arg12 : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results_simp

/-- Argument 13 still holds at the first kernel's exit what it held at the launch: neither the operations before the
    first kernel nor that kernel write it. -/
theorem exit0_arg13 : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  after_results_simp

/-- Argument 14 still holds at the first kernel's exit what it held at the launch: neither the operations before the
    first kernel nor that kernel write it. -/
theorem exit0_arg14 : W2 m ρ c (Proc.devRef .tc main_arg14) = (m ((c : Thread nD τ).loc main_arg14)) := by
  rw [W2_of_ne m ρ c main_arg14 (by decide)]
  show StableHlo.after hostOps0 (W0 m ρ c) (Proc.devRef .tc main_arg14) = _
  after_results_simp

/-- The node features in the narrower float format, at the first kernel's exit: the node features (the change of
    format is the identity on the extended reals). -/
theorem exit0_v4 : (W2 m ρ c (Proc.devRef .tc main_v4) : S50000x128.Idx → EReal) = (m ((c : Thread nD τ).loc main_arg0)) := by
  rw [W2_of_ne m ρ c main_v4 (by decide)]
  show StableHlo.after hostOps0 (W0 m ρ c) (Proc.devRef .tc main_v4) = _
  after_results_simp
  rfl

/-- Window 0: the node features. -/
theorem in1_0 : (V3 m ρ c main_v4 : S50000x128.Idx → EReal) = (m ((c : Thread nD τ).loc main_arg0)) := by
  show StableHlo.after hostOps1 (W2 m ρ c) (Proc.devRef .tc main_v4) = _
  after_results_simp
  exact exit0_v4 m ρ c

/-- Window 2: the first 128 rows of the update perceptron's first weight matrix. -/
theorem in1_2 (a k : Fin 128) : (V3 m ρ c main_v47 : S128x128.Idx → EReal) (ix2 a k) = ((m ((c : Thread nD τ).loc main_arg11)) : S256x128.Idx → EReal) (ix2 ⟨a.val, by omega⟩ k) := by
  have h : (V3 m ρ c main_v47 : S128x128.Idx → EReal) = extractStridedSlice S128x128 ![0, 0] ((m ((c : Thread nD τ).loc main_arg11)) : S256x128.Idx → EReal) slices_S256x128_S128x128_0_0 := by
    show StableHlo.after hostOps1 (W2 m ρ c) (Proc.devRef .tc main_v47) = _
    after_results_simp
    rw [exit0_arg11 m ρ c]
  rw [h]
  refine extractStridedSlice_apply _ _ _ _ _ fun ax => ?_
  match ax with
  | ⟨0, _⟩ => show a.val = 0 + a.val; omega
  | ⟨1, _⟩ => show k.val = 0 + k.val; omega

/-- Window 3: the last 128 rows of the update perceptron's first weight matrix. -/
theorem in1_3 (a k : Fin 128) : (V3 m ρ c main_v48 : S128x128.Idx → EReal) (ix2 a k) = ((m ((c : Thread nD τ).loc main_arg11)) : S256x128.Idx → EReal) (ix2 ⟨128 + a.val, by omega⟩ k) := by
  have h : (V3 m ρ c main_v48 : S128x128.Idx → EReal) = extractStridedSlice S128x128 ![128, 0] ((m ((c : Thread nD τ).loc main_arg11)) : S256x128.Idx → EReal) slices_S256x128_S128x128_128_0 := by
    show StableHlo.after hostOps1 (W2 m ρ c) (Proc.devRef .tc main_v48) = _
    after_results_simp
    rw [exit0_arg11 m ρ c]
  rw [h]
  refine extractStridedSlice_apply _ _ _ _ _ fun ax => ?_
  match ax with
  | ⟨0, _⟩ => show 128 + a.val = 128 + a.val; rfl
  | ⟨1, _⟩ => show k.val = 0 + k.val; omega

/-- Window 4: the update perceptron's first bias, as a row. -/
theorem in1_4 (k : Fin 128) : (V3 m ρ c main_v49 : S1x128.Idx → EReal) (ix2 0 k) = ((m ((c : Thread nD τ).loc main_arg12)) : S128.Idx → EReal) (ix1 k) := by
  have h : (V3 m ρ c main_v49 : S1x128.Idx → EReal) = shapeCast S1x128 ((m ((c : Thread nD τ).loc main_arg12)) : S128.Idx → EReal) shapeCasts_S128_S1x128 := by
    show StableHlo.after hostOps1 (W2 m ρ c) (Proc.devRef .tc main_v49) = _
    after_results_simp
    rw [exit0_arg12 m ρ c]
    rfl
  rw [h]
  exact shapeCast_a_1a_apply _ _ 0 k

/-- Window 5: the update perceptron's second weight matrix. -/
theorem in1_5 : (V3 m ρ c main_arg13 : S128x128.Idx → EReal) = (m ((c : Thread nD τ).loc main_arg13)) := by
  show StableHlo.after hostOps1 (W2 m ρ c) (Proc.devRef .tc main_arg13) = _
  after_results_simp
  exact exit0_arg13 m ρ c

/-- Window 6: the update perceptron's second bias, as a row. -/
theorem in1_6 (k : Fin 128) : (V3 m ρ c main_v50 : S1x128.Idx → EReal) (ix2 0 k) = ((m ((c : Thread nD τ).loc main_arg14)) : S128.Idx → EReal) (ix1 k) := by
  have h : (V3 m ρ c main_v50 : S1x128.Idx → EReal) = shapeCast S1x128 ((m ((c : Thread nD τ).loc main_arg14)) : S128.Idx → EReal) shapeCasts_S128_S1x128 := by
    show StableHlo.after hostOps1 (W2 m ρ c) (Proc.devRef .tc main_v50) = _
    after_results_simp
    rw [exit0_arg14 m ρ c]
    rfl
  rw [h]
  exact shapeCast_a_1a_apply _ _ 0 k

end Cert.KernelIdeal.Entry1
end
-- ==== Proof.Result.lean ====
/-
  The kernel program's result is the reference's result.

  When the per-node kernel is entered its windows hold the node features, the aggregated messages (the reference's:
  `Messages.aggregated`) and the update weights and biases cut out of, or reshaped from, the arguments.  The array it
  leaves — `NodeArr.G1` of those arrays — is, row by row, the reference's last stage: both are `Cert.Layer.updRow` of the
  same rows.  That array is the program's result buffer at the last boundary.
-/
import proofs.«109912_j49495203119136_2_alg».proof.Proof.Messages
import proofs.«109912_j49495203119136_2_alg».proof.Proof.NodeArr
import proofs.«109912_j49495203119136_2_alg».proof.Proof.RefNode
import proofs.«109912_j49495203119136_2_alg».proof.Proof.Entry1

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- `NodeArr.G1` at node `n`, column `j`: the update of the node's rows. -/
theorem G1_at (B0 B1 : S50000x128.Idx → EReal) (B2 B3 : S128x128.Idx → EReal) (B4 : S1x128.Idx → EReal) (B5 : S128x128.Idx → EReal)
    (B6 : S1x128.Idx → EReal) (n : Fin 50000) (j : Fin 128) :
    NodeArr.G1 B0 B1 B2 B3 B4 B5 B6 (ix2 n j)
      = Cert.Layer.updRow (fun a => B0 (ix2 n a)) (fun a => B1 (ix2 n a)) (fun a k => B2 (ix2 a k)) (fun a k => B3 (ix2 a k))
          (fun k => B4 (ix2 0 k)) (fun k j' => B5 (ix2 k j')) (fun k => B6 (ix2 0 k)) j := rfl

/-- The result buffer at the last boundary is the reference's result of the same arguments. -/
theorem result : (W4 m ρ c (Proc.devRef .tc main_v51) : S50000x128.Idx → EReal)
    = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h : W4 m ρ c (Proc.devRef .tc main_v51) = (dat1 (V3 m ρ) c).arrAt 7 cfg1.N := W4_arr m ρ c 7
  rw [h, NodeArr.final1 (V3 m ρ) c]
  funext i
  obtain ⟨n, j, rfl⟩ : ∃ (n : Fin 50000) (j : Fin 128), i = ix2 n j := ⟨i 0, i 1, eq_ix2 i⟩
  rw [Cert.ReferenceIdeal.RefNode.ref_update]
  rw [G1_at]
  rw [Entry1.in1_0 m ρ c, Messages.aggregated m ρ c, Entry1.in1_5 m ρ c]
  have e2 : (fun (a k : Fin 128) => (V3 m ρ c main_v47 : S128x128.Idx → EReal) (ix2 a k)) = _ := funext fun a => funext fun k => Entry1.in1_2 m ρ c a k
  have e3 : (fun (a k : Fin 128) => (V3 m ρ c main_v48 : S128x128.Idx → EReal) (ix2 a k)) = _ := funext fun a => funext fun k => Entry1.in1_3 m ρ c a k
  have e4 : (fun k : Fin 128 => (V3 m ρ c main_v49 : S1x128.Idx → EReal) (ix2 0 k)) = _ := funext fun k => Entry1.in1_4 m ρ c k
  have e6 : (fun k : Fin 128 => (V3 m ρ c main_v50 : S1x128.Idx → EReal) (ix2 0 k)) = _ := funext fun k => Entry1.in1_6 m ρ c k
  rw [e2, e3, e4, e6]

end Cert.KernelIdeal.Result

end
-- ==== Proof.lean ====
/-
  One position-aware message-passing layer: a TPU program of two kernels (a per-edge perceptron over 125 blocks of 6400
  edges, a per-node perceptron over 25 blocks of 2000 nodes) with host gathers before them and a host scatter-add between
  them, against the plain reference, at the extended reals.

  Both programs gather the end nodes' feature rows and positions with the same host operations, turn each edge's
  position difference into 32 position features, its 288 numbers (two feature rows and the position features) into a
  message, scatter-add the messages into their destination nodes with the same host operation, and turn each node's
  256 numbers (its features and its aggregate) into its new row.  The kernels multiply the pieces of a concatenated row
  by the matching rows of the weight matrix and add the products; the reference concatenates first and multiplies once.
  A sum over the concatenated axis is the sum of the sums over the pieces (commutativity and associativity of addition,
  which the extended reals have without any finiteness), every change of float format is the identity, and the rest
  is the same arithmetic in the same order: the results agree entry by entry, and the precondition is never opened.

  The frames of the two kernel programs are the generated ones; the reference's is its generated run with the result
  dropped; no operation was rewritten by the idealization, so the preservation claim is trivial.
-/
import proofs.«109912_j49495203119136_2_alg».proof.Defs
import proofs.«109912_j49495203119136_2_alg».proof.Proof.Gen.Kernel
import proofs.«109912_j49495203119136_2_alg».proof.Proof.Gen.Kernel.Skeleton
import proofs.«109912_j49495203119136_2_alg».proof.Proof.Gen.Kernel.Launch
import proofs.«109912_j49495203119136_2_alg».proof.Proof.Gen.Kernel.Points
import proofs.«109912_j49495203119136_2_alg».proof.Proof.Gen.Kernel.Frame
import proofs.«109912_j49495203119136_2_alg».proof.Proof.Gen.KernelIdeal
import proofs.«109912_j49495203119136_2_alg».proof.Proof.Gen.KernelIdeal.Skeleton
import proofs.«109912_j49495203119136_2_alg».proof.Proof.Gen.KernelIdeal.Launch
import proofs.«109912_j49495203119136_2_alg».proof.Proof.Gen.KernelIdeal.Points
import proofs.«109912_j49495203119136_2_alg».proof.Proof.Gen.KernelIdeal.Frame
import proofs.«109912_j49495203119136_2_alg».proof.Proof.Gen.ReferenceIdeal
import proofs.«109912_j49495203119136_2_alg».proof.Proof.Gen.ReferenceIdeal.Run
import proofs.«109912_j49495203119136_2_alg».proof.Proof.Gen.ReferenceIdeal.Read
import proofs.«109912_j49495203119136_2_alg».proof.Proof.Gen.Pre_finite_inputs
import proofs.«109912_j49495203119136_2_alg».proof.Proof.KernelRun
import proofs.«109912_j49495203119136_2_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the (agreeing) arguments. -/
theorem algebraic : Cert.algebraic_KernelIdeal_ReferenceIdeal := by
  intro m ρ m' ρ' _ hagree
  refine ⟨fun c => Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Result.result m ρ c), (h c).2⟩) (Cert.KernelIdeal.Run.run_result m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14⟩ := hagree c
    rw [(h c).1, Cert.ReferenceIdeal.Read.val_main_v64_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
